-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x30 : Shape := ⟨2, ![100000, 30]⟩
abbrev S2x3200000 : Shape := ⟨2, ![2, 3200000]⟩
abbrev S100000 : Shape := ⟨1, ![100000]⟩
abbrev S30x30 : Shape := ⟨2, ![30, 30]⟩
abbrev S30 : Shape := ⟨1, ![30]⟩
abbrev S30x1 : Shape := ⟨2, ![30, 1]⟩
abbrev S1 : Shape := ⟨1, ![1]⟩
abbrev S_ : Shape := ⟨0, ![]⟩

class Facts : Prop where
  bcast_S_S100000x30 : S_.BroadcastsInDim S100000x30 (![] : Fin 0 → Fin S100000x30.rank)
  reducesTo_S100000x30_S_d0_1 : S100000x30.ReducesTo [0, 1] S_
  h_S_ : 0 < S_.numel
  bcast_S_S30x30 : S_.BroadcastsInDim S30x30 (![] : Fin 0 → Fin S30x30.rank)
  reducesTo_S30x30_S_d0_1 : S30x30.ReducesTo [0, 1] S_
  bcast_S_S30 : S_.BroadcastsInDim S30 (![] : Fin 0 → Fin S30.rank)
  reducesTo_S30_S_d0 : S30.ReducesTo [0] S_
  bcast_S_S30x1 : S_.BroadcastsInDim S30x1 (![] : Fin 0 → Fin S30x1.rank)
  reducesTo_S30x1_S_d0_1 : S30x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S30x1 .f32) (main_arg10 : FVec F S1 .f32) (main_v33 : IVec S_ 1) : IVec S_ 1 :=
  let main_v34 : FVec F S30x1 .f32 := Host.absf main_arg9
  let main_cst_12 : FVec F S_ .f32 := constant S_ .f32 0x7F800000#32
  let main_v35 : FVec F S30x1 .f32 := broadcastInDim S30x1 ![] bcast_S_S30x1 main_cst_12
  let main_v36 : IVec S30x1 1 := cmpf .olt main_v34 main_v35
  let main_c_13 : IVec S_ 1 := constantI S_ 1 1#1
  let main_v37 : IVec S_ 1 := (fun x v => Host.reduce IntOp.andi x v reducesTo_S30x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S30 .f32) (main_arg7 : FVec F S30x30 .f32) (main_arg8 : FVec F S30 .f32) (main_arg9 : FVec F S30x1 .f32) (main_arg10 : FVec F S1 .f32) (main_v13 : IVec S_ 1) (main_v16 : IVec S30x30 1) : IVec S_ 1 :=
  let main_c_5 : IVec S_ 1 := constantI S_ 1 1#1
  let main_v17 : IVec S_ 1 := (fun x v => Host.reduce IntOp.andi x v reducesTo_S30x30_S_d0_1 h_S_) main_v16 main_c_5
  let main_v18 : IVec S_ 1 := andi main_v13 main_v17
  let main_v19 : FVec F S30 .f32 := Host.absf main_arg6
  let main_cst_6 : FVec F S_ .f32 := constant S_ .f32 0x7F800000#32
  let main_v20 : FVec F S30 .f32 := broadcastInDim S30 ![] bcast_S_S30 main_cst_6
  let main_v21 : IVec S30 1 := cmpf .olt main_v19 main_v20
  let main_c_7 : IVec S_ 1 := constantI S_ 1 1#1
  let main_v22 : IVec S_ 1 := (fun x v => Host.reduce IntOp.andi x v reducesTo_S30_S_d0 h_S_) main_v21 main_c_7
  let main_v23 : IVec S_ 1 := andi main_v18 main_v22
  let main_v24 : FVec F S30x30 .f32 := Host.absf main_arg7
  let main_cst_8 : FVec F S_ .f32 := constant S_ .f32 0x7F800000#32
  let main_v25 : FVec F S30x30 .f32 := broadcastInDim S30x30 ![] bcast_S_S30x30 main_cst_8
  let main_v26 : IVec S30x30 1 := cmpf .olt main_v24 main_v25
  let main_c_9 : IVec S_ 1 := constantI S_ 1 1#1
  let main_v27 : IVec S_ 1 := (fun x v => Host.reduce IntOp.andi x v reducesTo_S30x30_S_d0_1 h_S_) main_v26 main_c_9
  let main_v28 : IVec S_ 1 := andi main_v23 main_v27
  let main_v29 : FVec F S30 .f32 := Host.absf main_arg8
  let main_cst_10 : FVec F S_ .f32 := constant S_ .f32 0x7F800000#32
  let main_v30 : FVec F S30 .f32 := broadcastInDim S30 ![] bcast_S_S30 main_cst_10
  let main_v31 : IVec S30 1 := cmpf .olt main_v29 main_v30
  let main_c_11 : IVec S_ 1 := constantI S_ 1 1#1
  let main_v32 : IVec S_ 1 := (fun x v => Host.reduce IntOp.andi x v reducesTo_S30_S_d0 h_S_) main_v31 main_c_11
  let main_v33 : IVec S_ 1 := andi main_v28 main_v32
  fn_part2 (F := F) main_arg9 main_arg10 main_v33

def fn {F : FTy → Type} [FloatOps F] (main_arg0 : FVec F S100000x30 .f32) (main_arg1 : IVec S2x3200000 32) (main_arg2 : IVec S100000 32) (main_arg3 : FVec F S30x30 .f32) (main_arg4 : FVec F S30 .f32) (main_arg5 : FVec F S30x30 .f32) (main_arg6 : FVec F S30 .f32) (main_arg7 : FVec F S30x30 .f32) (main_arg8 : FVec F S30 .f32) (main_arg9 : FVec F S30x1 .f32) (main_arg10 : FVec F S1 .f32) : IVec S_ 1 :=
  let main_v0 : FVec F S100000x30 .f32 := Host.absf main_arg0
  let main_cst : FVec F S_ .f32 := constant S_ .f32 0x7F800000#32
  let main_v1 : FVec F S100000x30 .f32 := broadcastInDim S100000x30 ![] bcast_S_S100000x30 main_cst
  let main_v2 : IVec S100000x30 1 := cmpf .olt main_v0 main_v1
  let main_c : IVec S_ 1 := constantI S_ 1 1#1
  let main_v3 : IVec S_ 1 := (fun x v => Host.reduce IntOp.andi x v reducesTo_S100000x30_S_d0_1 h_S_) main_v2 main_c
  let main_v4 : FVec F S30x30 .f32 := Host.absf main_arg3
  let main_cst_0 : FVec F S_ .f32 := constant S_ .f32 0x7F800000#32
  let main_v5 : FVec F S30x30 .f32 := broadcastInDim S30x30 ![] bcast_S_S30x30 main_cst_0
  let main_v6 : IVec S30x30 1 := cmpf .olt main_v4 main_v5
  let main_c_1 : IVec S_ 1 := constantI S_ 1 1#1
  let main_v7 : IVec S_ 1 := (fun x v => Host.reduce IntOp.andi x v reducesTo_S30x30_S_d0_1 h_S_) main_v6 main_c_1
  let main_v8 : IVec S_ 1 := andi main_v3 main_v7
  let main_v9 : FVec F S30 .f32 := Host.absf main_arg4
  let main_cst_2 : FVec F S_ .f32 := constant S_ .f32 0x7F800000#32
  let main_v10 : FVec F S30 .f32 := broadcastInDim S30 ![] bcast_S_S30 main_cst_2
  let main_v11 : IVec S30 1 := cmpf .olt main_v9 main_v10
  let main_c_3 : IVec S_ 1 := constantI S_ 1 1#1
  let main_v12 : IVec S_ 1 := (fun x v => Host.reduce IntOp.andi x v reducesTo_S30_S_d0 h_S_) main_v11 main_c_3
  let main_v13 : IVec S_ 1 := andi main_v8 main_v12
  let main_v14 : FVec F S30x30 .f32 := Host.absf main_arg5
  let main_cst_4 : FVec F S_ .f32 := constant S_ .f32 0x7F800000#32
  let main_v15 : FVec F S30x30 .f32 := broadcastInDim S30x30 ![] bcast_S_S30x30 main_cst_4
  let main_v16 : IVec S30x30 1 := cmpf .olt main_v14 main_v15
  fn_part1 (F := F) main_arg6 main_arg7 main_arg8 main_arg9 main_arg10 main_v13 main_v16
-- ==== Kernel.lean ====
abbrev S100000x30 : Shape := ⟨2, ![100000, 30]⟩
abbrev S2x3200000 : Shape := ⟨2, ![2, 3200000]⟩
abbrev S100000 : Shape := ⟨1, ![100000]⟩
abbrev S30x30 : Shape := ⟨2, ![30, 30]⟩
abbrev S30 : Shape := ⟨1, ![30]⟩
abbrev S30x1 : Shape := ⟨2, ![30, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x30 : Shape := ⟨2, ![3300000, 30]⟩
abbrev S1x30 : Shape := ⟨2, ![1, 30]⟩
abbrev S10000x30 : Shape := ⟨2, ![10000, 30]⟩
abbrev S512x30 : Shape := ⟨2, ![512, 30]⟩
abbrev S100000x1 : Shape := ⟨2, ![100000, 1]⟩
abbrev S512x1 : Shape := ⟨2, ![512, 1]⟩
abbrev S1x1 : Shape := ⟨2, ![1, 1]⟩

abbrev nBuf : Space → Nat
  | .hbm => 109
  | .vmem => 18
  | .smem => 0
  | _ => 0

abbrev bufTy : (tb : Table) → Fin (tcTables nBuf tb) → BufTy
  | .hbm, ⟨0, _⟩ => ⟨S100000x30, .f32⟩
  | .hbm, ⟨1, _⟩ => ⟨S2x3200000, .i32⟩
  | .hbm, ⟨2, _⟩ => ⟨S100000, .i32⟩
  | .hbm, ⟨3, _⟩ => ⟨S30x30, .f32⟩
  | .hbm, ⟨4, _⟩ => ⟨S30, .f32⟩
  | .hbm, ⟨5, _⟩ => ⟨S30x30, .f32⟩
  | .hbm, ⟨6, _⟩ => ⟨S30, .f32⟩
  | .hbm, ⟨7, _⟩ => ⟨S30x30, .f32⟩
  | .hbm, ⟨8, _⟩ => ⟨S30, .f32⟩
  | .hbm, ⟨9, _⟩ => ⟨S30x1, .f32⟩
  | .hbm, ⟨10, _⟩ => ⟨S1, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x30, .f32⟩
  | .hbm, ⟨56, _⟩ => ⟨S3300000x1, .f32⟩
  | .hbm, ⟨57, _⟩ => ⟨S3300000x30, .f32⟩
  | .hbm, ⟨58, _⟩ => ⟨S3300000x30, .f32⟩
  | .hbm, ⟨59, _⟩ => ⟨S_, .f32⟩
  | .hbm, ⟨60, _⟩ => ⟨S100000x30, .f32⟩
  | .hbm, ⟨61, _⟩ => ⟨S3300000x1, .i32⟩
  | .hbm, ⟨62, _⟩ => ⟨S100000x30, .f32⟩
  | .hbm, ⟨63, _⟩ => ⟨S1x30, .f32⟩
  | .hbm, ⟨64, _⟩ => ⟨S100000x30, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x30, .f32⟩
  | .hbm, ⟨74, _⟩ => ⟨S3300000x1, .f32⟩
  | .hbm, ⟨75, _⟩ => ⟨S3300000x30, .f32⟩
  | .hbm, ⟨76, _⟩ => ⟨S3300000x30, .f32⟩
  | .hbm, ⟨77, _⟩ => ⟨S_, .f32⟩
  | .hbm, ⟨78, _⟩ => ⟨S100000x30, .f32⟩
  | .hbm, ⟨79, _⟩ => ⟨S3300000x1, .i32⟩
  | .hbm, ⟨80, _⟩ => ⟨S100000x30, .f32⟩
  | .hbm, ⟨81, _⟩ => ⟨S1x30, .f32⟩
  | .hbm, ⟨82, _⟩ => ⟨S100000x30, .f32⟩
  | .hbm, ⟨83, _⟩ => ⟨S_, .i32⟩
  | .hbm, ⟨84, _⟩ => ⟨S3300000, .i32⟩
  | .hbm, ⟨85, _⟩ => ⟨S3300000, .i1⟩
  | .hbm, ⟨86, _⟩ => ⟨S_, .i32⟩
  | .hbm, ⟨87, _⟩ => ⟨S3300000, .i32⟩
  | .hbm, ⟨88, _⟩ => ⟨S3300000, .i32⟩
  | .hbm, ⟨89, _⟩ => ⟨S3300000, .i32⟩
  | .hbm, ⟨90, _⟩ => ⟨S3300000x1, .i32⟩
  | .hbm, ⟨91, _⟩ => ⟨S3300000x30, .f32⟩
  | .hbm, ⟨92, _⟩ => ⟨S3300000x1, .f32⟩
  | .hbm, ⟨93, _⟩ => ⟨S3300000x30, .f32⟩
  | .hbm, ⟨94, _⟩ => ⟨S3300000x30, .f32⟩
  | .hbm, ⟨95, _⟩ => ⟨S_, .f32⟩
  | .hbm, ⟨96, _⟩ => ⟨S100000x30, .f32⟩
  | .hbm, ⟨97, _⟩ => ⟨S3300000x1, .i32⟩
  | .hbm, ⟨98, _⟩ => ⟨S100000x30, .f32⟩
  | .hbm, ⟨99, _⟩ => ⟨S1x30, .f32⟩
  | .hbm, ⟨100, _⟩ => ⟨S100000x30, .f32⟩
  | .hbm, ⟨101, _⟩ => ⟨S_, .f32⟩
  | .hbm, ⟨102, _⟩ => ⟨S512x30, .f32⟩
  | .hbm, ⟨103, _⟩ => ⟨S100000x1, .i32⟩
  | .hbm, ⟨104, _⟩ => ⟨S512x30, .f32⟩
  | .hbm, ⟨105, _⟩ => ⟨S512x1, .f32⟩
  | .hbm, ⟨106, _⟩ => ⟨S1x1, .f32⟩
  | .hbm, ⟨107, _⟩ => ⟨S512x1, .f32⟩
  | .hbm, ⟨108, _⟩ => ⟨S512x1, .f32⟩
  | .local _ .vmem, ⟨0, _⟩ => ⟨S10000x30, .f32⟩
  | .local _ .vmem, ⟨1, _⟩ => ⟨S10000x30, .f32⟩
  | .local _ .vmem, ⟨2, _⟩ => ⟨S30x30, .f32⟩
  | .local _ .vmem, ⟨3, _⟩ => ⟨S1x30, .f32⟩
  | .local _ .vmem, ⟨4, _⟩ => ⟨S10000x30, .f32⟩
  | .local _ .vmem, ⟨5, _⟩ => ⟨S10000x30, .f32⟩
  | .local _ .vmem, ⟨6, _⟩ => ⟨S10000x30, .f32⟩
  | .local _ .vmem, ⟨7, _⟩ => ⟨S10000x30, .f32⟩
  | .local _ .vmem, ⟨8, _⟩ => ⟨S30x30, .f32⟩
  | .local _ .vmem, ⟨9, _⟩ => ⟨S1x30, .f32⟩
  | .local _ .vmem, ⟨10, _⟩ => ⟨S10000x30, .f32⟩
  | .local _ .vmem, ⟨11, _⟩ => ⟨S10000x30, .f32⟩
  | .local _ .vmem, ⟨12, _⟩ => ⟨S10000x30, .f32⟩
  | .local _ .vmem, ⟨13, _⟩ => ⟨S10000x30, .f32⟩
  | .local _ .vmem, ⟨14, _⟩ => ⟨S30x30, .f32⟩
  | .local _ .vmem, ⟨15, _⟩ => ⟨S1x30, .f32⟩
  | .local _ .vmem, ⟨16, _⟩ => ⟨S10000x30, .f32⟩
  | .local _ .vmem, ⟨17, _⟩ => ⟨S10000x30, .f32⟩
  | _, _ => ⟨S100000x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x30 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x30 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x30 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S30x30 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x30 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x30 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x30 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S30x30 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x30 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x30 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x30_0_1 : S3300000x1.BroadcastsInDim S3300000x30 (![0, 1] : Fin 2 → Fin S3300000x30.rank)
  bcast_S_S100000x30 : S_.BroadcastsInDim S100000x30 (![] : Fin 0 → Fin S100000x30.rank)
  shapeCasts_S30_S1x30 : S30.ShapeCasts S1x30
  inb_S10000x30_S10000x30_0_0 : ∀ a, (![0, 0] : Fin 2 → Nat) a + S10000x30.size a ≤ S10000x30.size a
  h_S10000x30 : 0 < S10000x30.numel
  shapeCasts_S10000x30_S10000x30 : S10000x30.ShapeCasts S10000x30
  bitsLt_bf16_f32 : FTy.bits .bf16 < FTy.bits .f32
  inb_S30x30_S30x30_0_0 : ∀ a, (![0, 0] : Fin 2 → Nat) a + S30x30.size a ≤ S30x30.size a
  h_S30x30 : 0 < S30x30.numel
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S10000x30 : S1x30.Broadcasts S10000x30
  bcast_S_S512x30 : S_.BroadcastsInDim S512x30 (![] : Fin 0 → Fin S512x30.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x30_S3300000x1_S3300000x30_1_0_n_n_0_1_130_wf : GatherDims.WF S100000x30 S3300000x1 S3300000x30 [1] [0] [] [0] [] 1 ![1, 30]
  scatter_S100000x30_S3300000x1_S3300000x30_1_0_0_1_wf : ScatterDims.WF S100000x30 S3300000x1 S3300000x30 [1] [0] [0] 1
  dot_S10000x30_S30x30_S10000x30_1_0_0_1_n_n_wf : DotDims.WF S10000x30 S30x30 S10000x30 [1] [0] [0] [1] [] []
  scatter_S512x30_S100000x1_S100000x30_1_0_0_1_wf : ScatterDims.WF S512x30 S100000x1 S100000x30 [1] [0] [0] 1
  dot_S512x30_S30x1_S512x1_1_0_0_1_n_n_wf : DotDims.WF S512x30 S30x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x30.size a ≤ S100000x30.size a
  hwx0_0 : ∀ i : grid0.Coords, EltTy.bits .f32 = 32 ∨ (Rect.block (s := S100000x30) S10000x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x30.size a ≤ S30x30.size a
  hwx0_1 : ∀ i : grid0.Coords, EltTy.bits .f32 = 32 ∨ (Rect.block (s := S30x30) S30x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x30.size a ≤ S1x30.size a
  hwx0_2 : ∀ i : grid0.Coords, EltTy.bits .f32 = 32 ∨ (Rect.block (s := S1x30) S1x30.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x30.size a ≤ S100000x30.size a
  hwx0_3 : ∀ i : grid0.Coords, EltTy.bits .f32 = 32 ∨ (Rect.block (s := S100000x30) S10000x30.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x30.size a ≤ S100000x30.size a
  hwx1_0 : ∀ i : grid1.Coords, EltTy.bits .f32 = 32 ∨ (Rect.block (s := S100000x30) S10000x30.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S30x30.size a ≤ S30x30.size a
  hwx1_1 : ∀ i : grid1.Coords, EltTy.bits .f32 = 32 ∨ (Rect.block (s := S30x30) S30x30.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x30.size a ≤ S1x30.size a
  hwx1_2 : ∀ i : grid1.Coords, EltTy.bits .f32 = 32 ∨ (Rect.block (s := S1x30) S1x30.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x30.size a ≤ S100000x30.size a
  hwx1_3 : ∀ i : grid1.Coords, EltTy.bits .f32 = 32 ∨ (Rect.block (s := S100000x30) S10000x30.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x30.size a ≤ S100000x30.size a
  hwx2_0 : ∀ i : grid2.Coords, EltTy.bits .f32 = 32 ∨ (Rect.block (s := S100000x30) S10000x30.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S30x30.size a ≤ S30x30.size a
  hwx2_1 : ∀ i : grid2.Coords, EltTy.bits .f32 = 32 ∨ (Rect.block (s := S30x30) S30x30.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x30.size a ≤ S1x30.size a
  hwx2_2 : ∀ i : grid2.Coords, EltTy.bits .f32 = 32 ∨ (Rect.block (s := S1x30) S1x30.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x30.size a ≤ S100000x30.size a
  hwx2_3 : ∀ i : grid2.Coords, EltTy.bits .f32 = 32 ∨ (Rect.block (s := S100000x30) S10000x30.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x30_S3300000x1_S3300000x30_1_0_n_n_0_1_130 : GatherDims S100000x30 S3300000x1 S3300000x30 where
  offsetDims := [1]
  collapsedSliceDims := [0]
  operandBatchingDims := []
  startIndicesBatchingDims := []
  startIndexMap := [0]
  indexVectorDim := 1
  sliceSizes := ![1, 30]
  wf := gather_S100000x30_S3300000x1_S3300000x30_1_0_n_n_0_1_130_wf
def scatter_S100000x30_S3300000x1_S3300000x30_1_0_0_1 : ScatterDims S100000x30 S3300000x1 S3300000x30 where
  updateWindowDims := [1]
  insertedWindowDims := [0]
  scatterDimsToOperandDims := [0]
  indexVectorDim := 1
  wf := scatter_S100000x30_S3300000x1_S3300000x30_1_0_0_1_wf
def dot_S10000x30_S30x30_S10000x30_1_0_0_1_n_n : DotDims S10000x30 S30x30 S10000x30 where
  lhsContracting := [1]
  rhsContracting := [0]
  lhsNonContracting := [0]
  rhsNonContracting := [1]
  lhsBatch := []
  rhsBatch := []
  wf := dot_S10000x30_S30x30_S10000x30_1_0_0_1_n_n_wf
def scatter_S512x30_S100000x1_S100000x30_1_0_0_1 : ScatterDims S512x30 S100000x1 S100000x30 where
  updateWindowDims := [1]
  insertedWindowDims := [0]
  scatterDimsToOperandDims := [0]
  indexVectorDim := 1
  wf := scatter_S512x30_S100000x1_S100000x30_1_0_0_1_wf
def dot_S512x30_S30x1_S512x1_1_0_0_1_n_n : DotDims S512x30 S30x1 S512x1 where
  lhsContracting := [1]
  rhsContracting := [0]
  lhsNonContracting := [0]
  rhsNonContracting := [1]
  lhsBatch := []
  rhsBatch := []
  wf := dot_S512x30_S30x1_S512x1_1_0_0_1_n_n_wf

abbrev win0_0 : Pipeline.Window sig grid0 :=
  Pipeline.Window.ofSpec (Memref.whole main_v41) S10000x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S30x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x30.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S10000x30.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v56) S10000x30.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S30x30.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x30.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S10000x30.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v71) S10000x30.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S30x30.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S1x30.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S10000x30.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x30 : Shape := ⟨2, ![100000, 30]⟩
abbrev S2x3200000 : Shape := ⟨2, ![2, 3200000]⟩
abbrev S100000 : Shape := ⟨1, ![100000]⟩
abbrev S30x30 : Shape := ⟨2, ![30, 30]⟩
abbrev S30 : Shape := ⟨1, ![30]⟩
abbrev S30x1 : Shape := ⟨2, ![30, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x30 : Shape := ⟨2, ![3300000, 30]⟩
abbrev S1x30 : Shape := ⟨2, ![1, 30]⟩
abbrev S512x30 : Shape := ⟨2, ![512, 30]⟩
abbrev S100000x1 : Shape := ⟨2, ![100000, 1]⟩
abbrev S512x1 : Shape := ⟨2, ![512, 1]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S100000x30, .f32⟩
  | .hbm, ⟨1, _⟩ => ⟨S2x3200000, .i32⟩
  | .hbm, ⟨2, _⟩ => ⟨S100000, .i32⟩
  | .hbm, ⟨3, _⟩ => ⟨S30x30, .f32⟩
  | .hbm, ⟨4, _⟩ => ⟨S30, .f32⟩
  | .hbm, ⟨5, _⟩ => ⟨S30x30, .f32⟩
  | .hbm, ⟨6, _⟩ => ⟨S30, .f32⟩
  | .hbm, ⟨7, _⟩ => ⟨S30x30, .f32⟩
  | .hbm, ⟨8, _⟩ => ⟨S30, .f32⟩
  | .hbm, ⟨9, _⟩ => ⟨S30x1, .f32⟩
  | .hbm, ⟨10, _⟩ => ⟨S1, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x30, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x30, .f32⟩
  | .hbm, ⟨57, _⟩ => ⟨S3300000x1, .f32⟩
  | .hbm, ⟨58, _⟩ => ⟨S3300000x30, .f32⟩
  | .hbm, ⟨59, _⟩ => ⟨S3300000x30, .f32⟩
  | .hbm, ⟨60, _⟩ => ⟨S_, .f32⟩
  | .hbm, ⟨61, _⟩ => ⟨S100000x30, .f32⟩
  | .hbm, ⟨62, _⟩ => ⟨S3300000x1, .i32⟩
  | .hbm, ⟨63, _⟩ => ⟨S100000x30, .f32⟩
  | .hbm, ⟨64, _⟩ => ⟨S1x30, .f32⟩
  | .hbm, ⟨65, _⟩ => ⟨S100000x30, .f32⟩
  | .hbm, ⟨66, _⟩ => ⟨S100000x30, .f32⟩
  | .hbm, ⟨67, _⟩ => ⟨S_, .f32⟩
  | .hbm, ⟨68, _⟩ => ⟨S100000x30, .f32⟩
  | .hbm, ⟨69, _⟩ => ⟨S100000x30, .f32⟩
  | .hbm, ⟨70, _⟩ => ⟨S100000x30, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x30, .f32⟩
  | .hbm, ⟨80, _⟩ => ⟨S3300000x1, .f32⟩
  | .hbm, ⟨81, _⟩ => ⟨S3300000x30, .f32⟩
  | .hbm, ⟨82, _⟩ => ⟨S3300000x30, .f32⟩
  | .hbm, ⟨83, _⟩ => ⟨S_, .f32⟩
  | .hbm, ⟨84, _⟩ => ⟨S100000x30, .f32⟩
  | .hbm, ⟨85, _⟩ => ⟨S3300000x1, .i32⟩
  | .hbm, ⟨86, _⟩ => ⟨S100000x30, .f32⟩
  | .hbm, ⟨87, _⟩ => ⟨S1x30, .f32⟩
  | .hbm, ⟨88, _⟩ => ⟨S100000x30, .f32⟩
  | .hbm, ⟨89, _⟩ => ⟨S100000x30, .f32⟩
  | .hbm, ⟨90, _⟩ => ⟨S_, .f32⟩
  | .hbm, ⟨91, _⟩ => ⟨S100000x30, .f32⟩
  | .hbm, ⟨92, _⟩ => ⟨S100000x30, .f32⟩
  | .hbm, ⟨93, _⟩ => ⟨S100000x30, .f32⟩
  | .hbm, ⟨94, _⟩ => ⟨S_, .i32⟩
  | .hbm, ⟨95, _⟩ => ⟨S3300000, .i32⟩
  | .hbm, ⟨96, _⟩ => ⟨S3300000, .i1⟩
  | .hbm, ⟨97, _⟩ => ⟨S_, .i32⟩
  | .hbm, ⟨98, _⟩ => ⟨S3300000, .i32⟩
  | .hbm, ⟨99, _⟩ => ⟨S3300000, .i32⟩
  | .hbm, ⟨100, _⟩ => ⟨S3300000, .i32⟩
  | .hbm, ⟨101, _⟩ => ⟨S3300000x1, .i32⟩
  | .hbm, ⟨102, _⟩ => ⟨S3300000x30, .f32⟩
  | .hbm, ⟨103, _⟩ => ⟨S3300000x1, .f32⟩
  | .hbm, ⟨104, _⟩ => ⟨S3300000x30, .f32⟩
  | .hbm, ⟨105, _⟩ => ⟨S3300000x30, .f32⟩
  | .hbm, ⟨106, _⟩ => ⟨S_, .f32⟩
  | .hbm, ⟨107, _⟩ => ⟨S100000x30, .f32⟩
  | .hbm, ⟨108, _⟩ => ⟨S3300000x1, .i32⟩
  | .hbm, ⟨109, _⟩ => ⟨S100000x30, .f32⟩
  | .hbm, ⟨110, _⟩ => ⟨S1x30, .f32⟩
  | .hbm, ⟨111, _⟩ => ⟨S100000x30, .f32⟩
  | .hbm, ⟨112, _⟩ => ⟨S100000x30, .f32⟩
  | .hbm, ⟨113, _⟩ => ⟨S_, .f32⟩
  | .hbm, ⟨114, _⟩ => ⟨S100000x30, .f32⟩
  | .hbm, ⟨115, _⟩ => ⟨S100000x30, .f32⟩
  | .hbm, ⟨116, _⟩ => ⟨S_, .f32⟩
  | .hbm, ⟨117, _⟩ => ⟨S512x30, .f32⟩
  | .hbm, ⟨118, _⟩ => ⟨S100000x1, .i32⟩
  | .hbm, ⟨119, _⟩ => ⟨S512x30, .f32⟩
  | .hbm, ⟨120, _⟩ => ⟨S512x1, .f32⟩
  | .hbm, ⟨121, _⟩ => ⟨S1x1, .f32⟩
  | .hbm, ⟨122, _⟩ => ⟨S512x1, .f32⟩
  | .hbm, ⟨123, _⟩ => ⟨S512x1, .f32⟩
  | _, _ => ⟨S100000x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call1_cst : Ref sig .tc := ⟨.hbm, 90, rfl⟩
abbrev main_call1_v0 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_13 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call2_cst : Ref sig .tc := ⟨.hbm, 113, rfl⟩
abbrev main_call2_v0 : Ref sig .tc := ⟨.hbm, 114, rfl⟩
abbrev main_v82 : Ref sig .tc := ⟨.hbm, 115, rfl⟩
abbrev main_cst_14 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x30_0_1 : S3300000x1.BroadcastsInDim S3300000x30 (![0, 1] : Fin 2 → Fin S3300000x30.rank)
  bcast_S_S100000x30 : S_.BroadcastsInDim S100000x30 (![] : Fin 0 → Fin S100000x30.rank)
  bcast_S30_S1x30_1 : S30.BroadcastsInDim S1x30 (![1] : Fin 1 → Fin S1x30.rank)
  bcast_S1x30_S100000x30_0_1 : S1x30.BroadcastsInDim S100000x30 (![0, 1] : Fin 2 → Fin S100000x30.rank)
  bcast_S_S512x30 : S_.BroadcastsInDim S512x30 (![] : Fin 0 → Fin S512x30.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x30_S30x30_S100000x30_1_0_0_1_n_n_wf : DotDims.WF S100000x30 S30x30 S100000x30 [1] [0] [0] [1] [] []
  gather_S100000x30_S3300000x1_S3300000x30_1_0_n_n_0_1_130_wf : GatherDims.WF S100000x30 S3300000x1 S3300000x30 [1] [0] [] [0] [] 1 ![1, 30]
  scatter_S100000x30_S3300000x1_S3300000x30_1_0_0_1_wf : ScatterDims.WF S100000x30 S3300000x1 S3300000x30 [1] [0] [0] 1
  scatter_S512x30_S100000x1_S100000x30_1_0_0_1_wf : ScatterDims.WF S512x30 S100000x1 S100000x30 [1] [0] [0] 1
  dot_S512x30_S30x1_S512x1_1_0_0_1_n_n_wf : DotDims.WF S512x30 S30x1 S512x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x30_S30x30_S100000x30_1_0_0_1_n_n : DotDims S100000x30 S30x30 S100000x30 where
  lhsContracting := [1]
  rhsContracting := [0]
  lhsNonContracting := [0]
  rhsNonContracting := [1]
  lhsBatch := []
  rhsBatch := []
  wf := dot_S100000x30_S30x30_S100000x30_1_0_0_1_n_n_wf
def gather_S100000x30_S3300000x1_S3300000x30_1_0_n_n_0_1_130 : GatherDims S100000x30 S3300000x1 S3300000x30 where
  offsetDims := [1]
  collapsedSliceDims := [0]
  operandBatchingDims := []
  startIndicesBatchingDims := []
  startIndexMap := [0]
  indexVectorDim := 1
  sliceSizes := ![1, 30]
  wf := gather_S100000x30_S3300000x1_S3300000x30_1_0_n_n_0_1_130_wf
def scatter_S100000x30_S3300000x1_S3300000x30_1_0_0_1 : ScatterDims S100000x30 S3300000x1 S3300000x30 where
  updateWindowDims := [1]
  insertedWindowDims := [0]
  scatterDimsToOperandDims := [0]
  indexVectorDim := 1
  wf := scatter_S100000x30_S3300000x1_S3300000x30_1_0_0_1_wf
def scatter_S512x30_S100000x1_S100000x30_1_0_0_1 : ScatterDims S512x30 S100000x1 S100000x30 where
  updateWindowDims := [1]
  insertedWindowDims := [0]
  scatterDimsToOperandDims := [0]
  indexVectorDim := 1
  wf := scatter_S512x30_S100000x1_S100000x30_1_0_0_1_wf
def dot_S512x30_S30x1_S512x1_1_0_0_1_n_n : DotDims S512x30 S30x1 S512x1 where
  lhsContracting := [1]
  rhsContracting := [0]
  lhsNonContracting := [0]
  rhsNonContracting := [1]
  lhsBatch := []
  rhsBatch := []
  wf := dot_S512x30_S30x1_S512x1_1_0_0_1_n_n_wf

class Facts : Prop extends Facts₀ where

variable [Facts]
-- ==== Proof.KRun.lean ====
/-
  The kernel program's run, with its result array named.

  The program is three launches of one node-update body among four stretches of host operations. Every weakly fair
  execution from a memory with zero counters terminates without a fault; the buffer contents at the seven boundaries
  are a fold from the launch memory (a stretch applies its operations, a launch leaves each window's array at what its
  write-backs leave), so the final memory holds, at the result buffer, the last boundary's contents there, and the
  argument arrays as launched. The frame claim keeps only the second half of that sentence; the value claim needs the
  first half too, so the run is stated here with both.
-/
import proofs.«176950_j53764400611947_2_alg».proof.Proof.Gen.KernelIdeal.Frame

set_option maxRecDepth 16384

noncomputable section

namespace Cert.KernelIdeal.Valued

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument array as launched. -/
theorem run_valued : θ_run defs (onTc (τ := τ) (main (F := F))) ⟨m, fun _ => 0, ρ⟩ (fun r => ∀ c : Dev nD,
      r.2.mem ((c.tc : Thread nD τ).loc main_v80) = W7 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v80 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.Valued

end
-- ==== Proof.Stretches.lean ====
/-
  The host stretches of the kernel program, read.

  Before, between and after its three launches the program runs stretches of host operations. Each stretch is read here
  at an arbitrary valuation of the buffers it is entered with: what it leaves in the buffers the next launch (or the
  return) reads, as the operations' composed function of what it found; and that it leaves alone every buffer it does
  not write. The opening stretch builds, from the edge list, the source and destination index vectors (the edges
  followed by one self loop per node), the edge weights dinv[src] · dinv[dst] with dinv = rsqrt (max (degree, 1)), and
  the first aggregation; these are the same operations, in the same order, as the opening of the reference program, so
  they are stated as the reference's own stage functions of the edge list. The two middle stretches re-normalize the
  source indices, gather the previous layer's rows, weight them and aggregate; the last stretch pools the node rows
  by graph and applies the final linear map.
-/
import proofs.«176950_j53764400611947_2_alg».proof.Proof.Gen.KernelIdeal.Frame
import proofs.«176950_j53764400611947_2_alg».proof.Proof.Gen.ReferenceIdeal.Read
import Idealize.ShloMosaic.Lib.StableHlo.Run

set_option maxRecDepth 16384

noncomputable section

namespace Cert.KernelIdeal.Valued

open Cert.KernelIdeal Cert.KernelIdeal.Gen Idealize.ShloMosaic Idealize.ShloMosaic.TcCoe Idealize.ShloMosaic.StableHlo
open Cert.ReferenceIdeal.Read

variable (V : Valuation τ sig (Elt Ideal))

/-! ## The opening stretch -/

set_option maxHeartbeats 4000000 in
/-- The source index vector, as the reference's stage of the edge list. -/
theorem open_src : StableHlo.after (hostOps0 (F := Ideal)) V (Proc.devRef .tc main_v3) = val_main_v3 (F := Ideal) (V (Proc.devRef .tc main_arg1)) := by
  dsimp only [hostOps0]; after_results_simp; rfl
set_option maxHeartbeats 4000000 in
/-- The destination index vector. -/
theorem open_dst : StableHlo.after (hostOps0 (F := Ideal)) V (Proc.devRef .tc main_v6) = val_main_v6 (F := Ideal) (V (Proc.devRef .tc main_arg1)) := by
  dsimp only [hostOps0]; after_results_simp; rfl
set_option maxHeartbeats 4000000 in
/-- The edge weights. -/
theorem open_norm : StableHlo.after (hostOps0 (F := Ideal)) V (Proc.devRef .tc main_v28) = val_main_v28 (F := Ideal) (V (Proc.devRef .tc main_arg1)) := by
  dsimp only [hostOps0]; after_results_simp; rfl
set_option maxHeartbeats 4000000 in
/-- The first aggregation: the gathered rows of the node features, weighted, added onto their destination rows. -/
theorem open_agg : StableHlo.after (hostOps0 (F := Ideal)) V (Proc.devRef .tc main_v41)
    = Host.scatterAdd (F := Ideal) scatter_S100000x30_S3300000x1_S3300000x30_1_0_0_1
        (broadcastInDim S100000x30 ![] bcast_S_S100000x30 (constant S_ .f32 0x00000000#32))
        (val_main_v41 (F := Ideal) (V (Proc.devRef .tc main_arg1)))
        (mulf (Host.gather gather_S100000x30_S3300000x1_S3300000x30_1_0_n_n_0_1_130 (V (Proc.devRef .tc main_arg0))
          (val_main_v35 (F := Ideal) (V (Proc.devRef .tc main_arg1)))) (val_main_v38 (F := Ideal) (V (Proc.devRef .tc main_arg1)))) := by
  dsimp only [hostOps0]; after_results_simp; rfl
set_option maxHeartbeats 4000000 in
/-- The first bias vector as a row. -/
theorem open_bias : StableHlo.after (hostOps0 (F := Ideal)) V (Proc.devRef .tc main_v42)
    = shapeCast (α := Elt Ideal .f32) S1x30 (V (Proc.devRef .tc main_arg4)) shapeCasts_S30_S1x30 := by
  dsimp only [hostOps0]; after_results_simp; rfl

/-! ## The first middle stretch -/

set_option maxHeartbeats 4000000 in
/-- With the index vectors and edge weights still in place, the stretch leaves the aggregation of the previous
    layer's rows: gathered at the re-normalized source indices, weighted, added onto their destination rows. -/
theorem mid1_agg (x1 : (⟨Cert.ReferenceIdeal.S2x3200000, .i32⟩ : BufTy).Contents (Elt Ideal))
    (h3 : V (Proc.devRef .tc main_v3) = val_main_v3 (F := Ideal) x1) (h6 : V (Proc.devRef .tc main_v6) = val_main_v6 (F := Ideal) x1)
    (h28 : V (Proc.devRef .tc main_v28) = val_main_v28 (F := Ideal) x1) :
    StableHlo.after (hostOps1 (F := Ideal)) V (Proc.devRef .tc main_v56)
    = Host.scatterAdd (F := Ideal) scatter_S100000x30_S3300000x1_S3300000x30_1_0_0_1
        (broadcastInDim S100000x30 ![] bcast_S_S100000x30 (constant S_ .f32 0x00000000#32))
        (val_main_v59 (F := Ideal) x1)
        (mulf (Host.gather gather_S100000x30_S3300000x1_S3300000x30_1_0_n_n_0_1_130 (V (Proc.devRef .tc main_v43))
          (val_main_v53 (F := Ideal) x1)) (val_main_v56 (F := Ideal) x1)) := by
  dsimp only [hostOps1]; after_results_simp; rw [h3, h6, h28]; rfl
/-- The layer's bias vector as a row. -/
theorem mid1_bias : StableHlo.after (hostOps1 (F := Ideal)) V (Proc.devRef .tc main_v57)
    = shapeCast (α := Elt Ideal .f32) S1x30 (V (Proc.devRef .tc main_arg6)) shapeCasts_S30_S1x30 := by
  dsimp only [hostOps1]; after_results_simp; rfl

/-! ## The second middle stretch -/

set_option maxHeartbeats 4000000 in
/-- With the index vectors and edge weights still in place, the stretch leaves the aggregation of the previous
    layer's rows: gathered at the re-normalized source indices, weighted, added onto their destination rows. -/
theorem mid2_agg (x1 : (⟨Cert.ReferenceIdeal.S2x3200000, .i32⟩ : BufTy).Contents (Elt Ideal))
    (h3 : V (Proc.devRef .tc main_v3) = val_main_v3 (F := Ideal) x1) (h6 : V (Proc.devRef .tc main_v6) = val_main_v6 (F := Ideal) x1)
    (h28 : V (Proc.devRef .tc main_v28) = val_main_v28 (F := Ideal) x1) :
    StableHlo.after (hostOps2 (F := Ideal)) V (Proc.devRef .tc main_v71)
    = Host.scatterAdd (F := Ideal) scatter_S100000x30_S3300000x1_S3300000x30_1_0_0_1
        (broadcastInDim S100000x30 ![] bcast_S_S100000x30 (constant S_ .f32 0x00000000#32))
        (val_main_v77 (F := Ideal) x1)
        (mulf (Host.gather gather_S100000x30_S3300000x1_S3300000x30_1_0_n_n_0_1_130 (V (Proc.devRef .tc main_v58))
          (val_main_v71 (F := Ideal) x1)) (val_main_v74 (F := Ideal) x1)) := by
  dsimp only [hostOps2]; after_results_simp; rw [h3, h6, h28]; rfl
/-- The layer's bias vector as a row. -/
theorem mid2_bias : StableHlo.after (hostOps2 (F := Ideal)) V (Proc.devRef .tc main_v72)
    = shapeCast (α := Elt Ideal .f32) S1x30 (V (Proc.devRef .tc main_arg8)) shapeCasts_S30_S1x30 := by
  dsimp only [hostOps2]; after_results_simp; rfl

/-! ## The closing stretch -/

/-- With the third layer's rows in place and the pooling indices and the final linear map's arguments as launched,
    the stretch leaves the reference's last stage: rows pooled by graph, times the column, plus the scalar bias. -/
theorem close_result (x0 : (⟨Cert.ReferenceIdeal.S100000x30, .f32⟩ : BufTy).Contents (Elt Ideal)) (x1 : (⟨Cert.ReferenceIdeal.S2x3200000, .i32⟩ : BufTy).Contents (Elt Ideal)) (x2 : (⟨Cert.ReferenceIdeal.S100000, .i32⟩ : BufTy).Contents (Elt Ideal)) (x3 : (⟨Cert.ReferenceIdeal.S30x30, .f32⟩ : BufTy).Contents (Elt Ideal)) (x4 : (⟨Cert.ReferenceIdeal.S30, .f32⟩ : BufTy).Contents (Elt Ideal)) (x5 : (⟨Cert.ReferenceIdeal.S30x30, .f32⟩ : BufTy).Contents (Elt Ideal)) (x6 : (⟨Cert.ReferenceIdeal.S30, .f32⟩ : BufTy).Contents (Elt Ideal)) (x7 : (⟨Cert.ReferenceIdeal.S30x30, .f32⟩ : BufTy).Contents (Elt Ideal)) (x8 : (⟨Cert.ReferenceIdeal.S30, .f32⟩ : BufTy).Contents (Elt Ideal)) (x9 : (⟨Cert.ReferenceIdeal.S30x1, .f32⟩ : BufTy).Contents (Elt Ideal)) (x10 : (⟨Cert.ReferenceIdeal.S1, .f32⟩ : BufTy).Contents (Elt Ideal))
    (h73 : V (Proc.devRef .tc main_v73) = val_main_v82 (F := Ideal) x0 x1 x3 x4 x5 x6 x7 x8)
    (h2 : V (Proc.devRef .tc main_arg2) = x2) (h9 : V (Proc.devRef .tc main_arg9) = x9) (h10 : V (Proc.devRef .tc main_arg10) = x10) :
    StableHlo.after (hostOps3 (F := Ideal)) V (Proc.devRef .tc main_v80) = val_main_v89 (F := Ideal) x0 x1 x2 x3 x4 x5 x6 x7 x8 x9 x10 := by
  dsimp only [hostOps3]; after_results_simp; rw [h73, h2, h9, h10]; rfl

/-! ## What the stretches leave alone -/

section
set_option maxHeartbeats 4000000
theorem keep0_main_arg2 : StableHlo.after (hostOps0 (F := Ideal)) V (Proc.devRef .tc main_arg2) = V (Proc.devRef .tc main_arg2) := by
  dsimp only [hostOps0]; after_results_simp
theorem keep0_main_arg3 : StableHlo.after (hostOps0 (F := Ideal)) V (Proc.devRef .tc main_arg3) = V (Proc.devRef .tc main_arg3) := by
  dsimp only [hostOps0]; after_results_simp
theorem keep0_main_arg5 : StableHlo.after (hostOps0 (F := Ideal)) V (Proc.devRef .tc main_arg5) = V (Proc.devRef .tc main_arg5) := by
  dsimp only [hostOps0]; after_results_simp
theorem keep0_main_arg6 : StableHlo.after (hostOps0 (F := Ideal)) V (Proc.devRef .tc main_arg6) = V (Proc.devRef .tc main_arg6) := by
  dsimp only [hostOps0]; after_results_simp
theorem keep0_main_arg7 : StableHlo.after (hostOps0 (F := Ideal)) V (Proc.devRef .tc main_arg7) = V (Proc.devRef .tc main_arg7) := by
  dsimp only [hostOps0]; after_results_simp
theorem keep0_main_arg8 : StableHlo.after (hostOps0 (F := Ideal)) V (Proc.devRef .tc main_arg8) = V (Proc.devRef .tc main_arg8) := by
  dsimp only [hostOps0]; after_results_simp
theorem keep0_main_arg9 : StableHlo.after (hostOps0 (F := Ideal)) V (Proc.devRef .tc main_arg9) = V (Proc.devRef .tc main_arg9) := by
  dsimp only [hostOps0]; after_results_simp
theorem keep0_main_arg10 : StableHlo.after (hostOps0 (F := Ideal)) V (Proc.devRef .tc main_arg10) = V (Proc.devRef .tc main_arg10) := by
  dsimp only [hostOps0]; after_results_simp
theorem keep1_main_v3 : StableHlo.after (hostOps1 (F := Ideal)) V (Proc.devRef .tc main_v3) = V (Proc.devRef .tc main_v3) := by
  dsimp only [hostOps1]; after_results_simp
theorem keep1_main_v6 : StableHlo.after (hostOps1 (F := Ideal)) V (Proc.devRef .tc main_v6) = V (Proc.devRef .tc main_v6) := by
  dsimp only [hostOps1]; after_results_simp
theorem keep1_main_v28 : StableHlo.after (hostOps1 (F := Ideal)) V (Proc.devRef .tc main_v28) = V (Proc.devRef .tc main_v28) := by
  dsimp only [hostOps1]; after_results_simp
theorem keep1_main_arg2 : StableHlo.after (hostOps1 (F := Ideal)) V (Proc.devRef .tc main_arg2) = V (Proc.devRef .tc main_arg2) := by
  dsimp only [hostOps1]; after_results_simp
theorem keep1_main_arg5 : StableHlo.after (hostOps1 (F := Ideal)) V (Proc.devRef .tc main_arg5) = V (Proc.devRef .tc main_arg5) := by
  dsimp only [hostOps1]; after_results_simp
theorem keep1_main_arg7 : StableHlo.after (hostOps1 (F := Ideal)) V (Proc.devRef .tc main_arg7) = V (Proc.devRef .tc main_arg7) := by
  dsimp only [hostOps1]; after_results_simp
theorem keep1_main_arg8 : StableHlo.after (hostOps1 (F := Ideal)) V (Proc.devRef .tc main_arg8) = V (Proc.devRef .tc main_arg8) := by
  dsimp only [hostOps1]; after_results_simp
theorem keep1_main_arg9 : StableHlo.after (hostOps1 (F := Ideal)) V (Proc.devRef .tc main_arg9) = V (Proc.devRef .tc main_arg9) := by
  dsimp only [hostOps1]; after_results_simp
theorem keep1_main_arg10 : StableHlo.after (hostOps1 (F := Ideal)) V (Proc.devRef .tc main_arg10) = V (Proc.devRef .tc main_arg10) := by
  dsimp only [hostOps1]; after_results_simp
theorem keep2_main_arg2 : StableHlo.after (hostOps2 (F := Ideal)) V (Proc.devRef .tc main_arg2) = V (Proc.devRef .tc main_arg2) := by
  dsimp only [hostOps2]; after_results_simp
theorem keep2_main_arg7 : StableHlo.after (hostOps2 (F := Ideal)) V (Proc.devRef .tc main_arg7) = V (Proc.devRef .tc main_arg7) := by
  dsimp only [hostOps2]; after_results_simp
theorem keep2_main_arg9 : StableHlo.after (hostOps2 (F := Ideal)) V (Proc.devRef .tc main_arg9) = V (Proc.devRef .tc main_arg9) := by
  dsimp only [hostOps2]; after_results_simp
theorem keep2_main_arg10 : StableHlo.after (hostOps2 (F := Ideal)) V (Proc.devRef .tc main_arg10) = V (Proc.devRef .tc main_arg10) := by
  dsimp only [hostOps2]; after_results_simp
end

end Cert.KernelIdeal.Valued

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.NodeUpdate.lean ====
/-
  One node update, read at an entry.

  The kernel body takes a tile A of 10000 node rows with 30 features, a 30 × 30 weight matrix W and a bias row β, and
  stores relu(A · W + β): at row p and column q,

      max (∑ k, A (p, k) · W (k, q) + β (0, q)) 0.

  Read on exact values, the two narrowing conversions in front of the matrix product are the identity, the product
  into the zero accumulator is the plain sum over the 30 contracted positions, the bias row repeated down the tile
  reads the row at the column, and the maximum with the zero splat is the maximum with 0. The three launches of the
  program run the same body, so the statement is made once and carried to the other two by unfolding names.
-/
import proofs.«176950_j53764400611947_2_alg».proof.Proof.Gen.KernelIdeal.Skeleton
import proofs.«176950_j53764400611947_2_alg».proof.Proof.LibMatmul2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Valued

open Cert.KernelIdeal Cert.KernelIdeal.Gen Idealize.ShloMosaic Idealize.ShloMosaic.ValueIdx

/-- The node update of a whole array of 100000 rows: relu (A · W + β), entry by entry. -/
def nodeUpdate (A : S100000x30.Idx → EReal) (W : S30x30.Idx → EReal) (β : S1x30.Idx → EReal) : S100000x30.Idx → EReal :=
  fun i => max (∑ k : Fin 30, A (ix2 (i 0) k) * W (ix2 k (i 1)) + β (ix2 0 (i 1))) 0

/-- The bias row repeated down the tile reads the row at the column. -/
theorem biasRows_apply (x2 : Vec Ideal S1x30 .f32) (p : Fin 10000) (q : Fin 30) :
    broadcastTo S10000x30 (shapeCast S1x30 x2 shapeCasts_S1x30_S1x30) broadcasts_S1x30_S10000x30 (ix2 p q) = x2 (ix2 0 q) := by
  rw [shapeCast_self]
  refine broadcastTo_apply _ _ _ (ix2 0 q) fun a => ?_
  match a with
  | ⟨0, _⟩ => rfl
  | ⟨1, _⟩ => rfl

/-- The body's stored value at row p, column q of the tile. -/
theorem pay_apply (x0 : Vec Ideal S10000x30 .f32) (x1 : Vec Ideal S30x30 .f32) (x2 : Vec Ideal S1x30 .f32)
    (p : Fin 10000) (q : Fin 30) :
    k0_pay1 (F := Ideal) x0 x1 x2 (ix2 p q) = max (∑ k : Fin 30, x0 (ix2 p k) * x1 (ix2 k q) + x2 (ix2 0 q)) 0 := by
  have hm : matmul (F := Ideal) dot_S10000x30_S30x30_S10000x30_1_0_0_1_n_n none
      (truncf .bf16 (shapeCast S10000x30 x0 shapeCasts_S10000x30_S10000x30) bitsLt_bf16_f32)
      (truncf .bf16 x1 bitsLt_bf16_f32) (constant S10000x30 .f32 0x00000000#32) (ix2 p q)
      = ∑ k : Fin 30, x0 (ix2 p k) * x1 (ix2 k q) := by
    rw [shapeCast_self]
    exact Cert.Lib.matmul2_zero_apply (A := 10000) (K := 30) (B := 30) _ _ _ p q
  have hz : Ideal.ofBits .f32 0x00000000#32 = (0 : EReal) := Ideal.ofBits_zero_f32
  exact (congrArg₂ (fun a b : EReal => max (a + b) (Ideal.ofBits .f32 0x00000000#32)) hm (biasRows_apply x2 p q)).trans
    (by rw [hz])

/-- The second and third launch store the same function of their tiles. -/
theorem pay1_eq (x0 : Vec Ideal S10000x30 .f32) (x1 : Vec Ideal S30x30 .f32) (x2 : Vec Ideal S1x30 .f32) :
    k1_pay1 (F := Ideal) x0 x1 x2 = k0_pay1 x0 x1 x2 := rfl
theorem pay2_eq (x0 : Vec Ideal S10000x30 .f32) (x1 : Vec Ideal S30x30 .f32) (x2 : Vec Ideal S1x30 .f32) :
    k2_pay1 (F := Ideal) x0 x1 x2 = k0_pay1 x0 x1 x2 := rfl

end Cert.KernelIdeal.Valued

end
-- ==== Proof.Region0.lean ====
/-
  Launch 0 of the node update, as one function of the arrays it is entered with.

  The launch walks ten grid points; point t takes rows 10000·t … 10000·t + 9999 of the aggregated features, the whole
  weight matrix and the whole bias row, and writes rows 10000·t … 10000·t + 9999 of the output. What point t writes
  back is therefore the block at t of ONE function of the whole arrays, relu (A · W + β) entry by entry, because row
  10000·t + p of that function only reads row 10000·t + p of A. The ten blocks tile the 100000 rows (row r lies in the
  block of point r / 10000), so after the launch the output array holds that function everywhere.
-/
import proofs.«176950_j53764400611947_2_alg».proof.Proof.Gen.KernelIdeal.Frame
import proofs.«176950_j53764400611947_2_alg».proof.Proof.NodeUpdate
import Idealize.ShloMosaic.Lib.Pipeline.Value

set_option maxRecDepth 16384

noncomputable section

namespace Cert.KernelIdeal.Valued

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem origin0 : (![0, 0] : Fin 2 → Nat) = fun _ => 0 := funext fun a => by fin_cases a <;> rfl

/-- The printed index maps over the grid: the feature and output windows move together down the rows, one block per
    point; the weight and bias windows stay at the origin. -/
theorem indexFacts0 : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 9 :=
  (by decide +kernel : ∀ t : Fin grid0.N, _)

/-- Every block of rows is some point's. -/
theorem indexOnto0 : ∀ q0 : Fin 10, ∃ t : Fin cfg0.N, win0_3.index t = ![q0.val, 0] :=
  (by decide +kernel : ∀ q0 : Fin 10, ∃ t : Fin grid0.N, win0_3.index t = ![q0.val, 0])

/-- What point t writes back is the block at t of the node update of the whole entry arrays. -/
theorem flushed0 (c : Dev nD) (t : Fin cfg0.N) :
    (dat0 (F := Ideal) V c).flushed 3 t
      = ((cfg0.win 3).blk t).view.read (Elt Ideal) (nodeUpdate (V c main_v41) (V c main_arg3) (V c main_v42)) := by
  show (cfg0.win 3).cut (grid0.coords t) ((dat0 V c).after 3 t) = _
  rw [after0_3]
  unfold out0_3
  rw [View.canon_unit_zero origin0]
  simp only [View.ld_unit_zero (S := S10000x30) origin0, View.ld_unit_zero (S := S30x30) origin0,
    View.ld_unit_zero (S := S1x30) origin0]
  obtain ⟨e0, e1, e2, e3, e4, e5, e6, e7⟩ := indexFacts0 t
  funext j
  show k0_pay1 (F := Ideal) (iblk0 V c 0 t) (iblk0 V c 1 t) (iblk0 V c 2 t) j
    = nodeUpdate (V c main_v41) (V c main_arg3) (V c main_v42) (((cfg0.win 3).blk t).view.emb j)
  refine (congrArg (k0_pay1 (F := Ideal) (iblk0 V c 0 t) (iblk0 V c 1 t) (iblk0 V c 2 t))
    (eq_ix2 (n0 := 10000) (n1 := 30) j)).trans ?_
  refine (pay_apply _ _ _ (j 0) (j 1)).trans ?_
  unfold nodeUpdate
  have hA : ∀ k : Fin 30, iblk0 V c 0 t (ix2 (j 0) k)
      = V c main_v41 (ix2 ((((cfg0.win 3).blk t).view.emb j) 0) k) := fun k => by
    show V c main_v41 (((cfg0.win 0).blk t).view.emb (ix2 (j 0) k)) = _
    refine congrArg (V c main_v41) (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 30 + 1 * k.val = k.val; omega
  have hW : ∀ k : Fin 30, iblk0 V c 1 t (ix2 k (j 1))
      = V c main_arg3 (ix2 k ((((cfg0.win 3).blk t).view.emb j) 1)) := fun k => by
    show V c main_arg3 (((cfg0.win 1).blk t).view.emb (ix2 k (j 1))) = _
    refine congrArg (V c main_arg3) (funext fun a => Fin.ext ?_)
    match a with
    | ⟨0, _⟩ => show win0_1.index t (0 : Fin 2) * 30 + 1 * k.val = k.val; omega
    | ⟨1, _⟩ => show win0_1.index t (1 : Fin 2) * 30 + 1 * (j 1).val = win0_3.index t (1 : Fin 2) * 30 + 1 * (j 1).val; omega
  have hB : iblk0 V c 2 t (ix2 0 (j 1))
      = V c main_v42 (ix2 0 ((((cfg0.win 3).blk t).view.emb j) 1)) := by
    show V c main_v42 (((cfg0.win 2).blk t).view.emb (ix2 0 (j 1))) = _
    refine congrArg (V c main_v42) (funext fun a => Fin.ext ?_)
    match a with
    | ⟨0, _⟩ => show win0_2.index t (0 : Fin 2) * 1 + 1 * 0 = 0; omega
    | ⟨1, _⟩ => show win0_2.index t (1 : Fin 2) * 30 + 1 * (j 1).val = win0_3.index t (1 : Fin 2) * 30 + 1 * (j 1).val; omega
  rw [hB, Finset.sum_congr rfl fun k _ => by rw [hA k, hW k]]

/-- An index of the output array is in point t's block iff each coordinate is in the block's range on its axis. -/
theorem memBlock0 (t : Fin cfg0.N) (i : S100000x30.Idx) :
    i ∈ ((cfg0.win 3).blk t).view.set ↔ ∀ a : Fin 2, win0_3.index t a * S10000x30.size a ≤ (i a).val
      ∧ (i a).val < win0_3.index t a * S10000x30.size a + S10000x30.size a := by
  show i ∈ ((View.whole main_v43).slice (win0_3.rect t)).set ↔ _
  rw [View.set_slice_whole, Rect.mem_set_unit]
  exact Iff.rfl

/-- Every index of the output array lies in the block of the point its row falls to. -/
theorem covered0 (i : S100000x30.Idx) :
    ∃ t : Fin cfg0.N, (cfg0.win 3).flush t = true ∧ i ∈ ((cfg0.win 3).blk t).view.set := by
  have hi0 : (i 0).val < 100000 := (i 0).isLt
  have hi1 : (i 1).val < 30 := (i 1).isLt
  obtain ⟨t, ht⟩ := indexOnto0 ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [memBlock0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 30 ≤ (i 1).val ∧ (i 1).val < win0_3.index t (1 : Fin 2) * 30 + 30; omega

/-- After the launch the output array is the node update of the arrays the launch was entered with. -/
theorem regionArray0 (c : Dev nD) :
    (dat0 (F := Ideal) V c).arrAt 3 cfg0.N = nodeUpdate (V c main_v41) (V c main_arg3) (V c main_v42) :=
  (dat0 (F := Ideal) V c).arrAt_eq_of_cover 3 (nodeUpdate (V c main_v41) (V c main_arg3) (V c main_v42))
    (fun t _ => flushed0 V c t) covered0

end Cert.KernelIdeal.Valued

end
-- ==== Proof.Region1.lean ====
/-
  Launch 1 of the node update, as one function of the arrays it is entered with.

  The launch walks ten grid points; point t takes rows 10000·t … 10000·t + 9999 of the aggregated features, the whole
  weight matrix and the whole bias row, and writes rows 10000·t … 10000·t + 9999 of the output. What point t writes
  back is therefore the block at t of ONE function of the whole arrays, relu (A · W + β) entry by entry, because row
  10000·t + p of that function only reads row 10000·t + p of A. The ten blocks tile the 100000 rows (row r lies in the
  block of point r / 10000), so after the launch the output array holds that function everywhere.
-/
import proofs.«176950_j53764400611947_2_alg».proof.Proof.Gen.KernelIdeal.Frame
import proofs.«176950_j53764400611947_2_alg».proof.Proof.NodeUpdate
import Idealize.ShloMosaic.Lib.Pipeline.Value

set_option maxRecDepth 16384

noncomputable section

namespace Cert.KernelIdeal.Valued

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem origin1 : (![0, 0] : Fin 2 → Nat) = fun _ => 0 := funext fun a => by fin_cases a <;> rfl

/-- The printed index maps over the grid: the feature and output windows move together down the rows, one block per
    point; the weight and bias windows stay at the origin. -/
theorem indexFacts1 : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 :=
  (by decide +kernel : ∀ t : Fin grid1.N, _)

/-- Every block of rows is some point's. -/
theorem indexOnto1 : ∀ q0 : Fin 10, ∃ t : Fin cfg1.N, win1_3.index t = ![q0.val, 0] :=
  (by decide +kernel : ∀ q0 : Fin 10, ∃ t : Fin grid1.N, win1_3.index t = ![q0.val, 0])

/-- What point t writes back is the block at t of the node update of the whole entry arrays. -/
theorem flushed1 (c : Dev nD) (t : Fin cfg1.N) :
    (dat1 (F := Ideal) V c).flushed 3 t
      = ((cfg1.win 3).blk t).view.read (Elt Ideal) (nodeUpdate (V c main_v56) (V c main_arg5) (V c main_v57)) := by
  show (cfg1.win 3).cut (grid1.coords t) ((dat1 V c).after 3 t) = _
  rw [after1_3]
  unfold out1_3
  rw [View.canon_unit_zero origin1]
  simp only [View.ld_unit_zero (S := S10000x30) origin1, View.ld_unit_zero (S := S30x30) origin1,
    View.ld_unit_zero (S := S1x30) origin1]
  obtain ⟨e0, e1, e2, e3, e4, e5, e6, e7⟩ := indexFacts1 t
  funext j
  show k1_pay1 (F := Ideal) (iblk1 V c 0 t) (iblk1 V c 1 t) (iblk1 V c 2 t) j
    = nodeUpdate (V c main_v56) (V c main_arg5) (V c main_v57) (((cfg1.win 3).blk t).view.emb j)
  refine (congrArg (k0_pay1 (F := Ideal) (iblk1 V c 0 t) (iblk1 V c 1 t) (iblk1 V c 2 t))
    (eq_ix2 (n0 := 10000) (n1 := 30) j)).trans ?_
  refine (pay_apply _ _ _ (j 0) (j 1)).trans ?_
  unfold nodeUpdate
  have hA : ∀ k : Fin 30, iblk1 V c 0 t (ix2 (j 0) k)
      = V c main_v56 (ix2 ((((cfg1.win 3).blk t).view.emb j) 0) k) := fun k => by
    show V c main_v56 (((cfg1.win 0).blk t).view.emb (ix2 (j 0) k)) = _
    refine congrArg (V c main_v56) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 30 + 1 * k.val = k.val; omega
  have hW : ∀ k : Fin 30, iblk1 V c 1 t (ix2 k (j 1))
      = V c main_arg5 (ix2 k ((((cfg1.win 3).blk t).view.emb j) 1)) := fun k => by
    show V c main_arg5 (((cfg1.win 1).blk t).view.emb (ix2 k (j 1))) = _
    refine congrArg (V c main_arg5) (funext fun a => Fin.ext ?_)
    match a with
    | ⟨0, _⟩ => show win1_1.index t (0 : Fin 2) * 30 + 1 * k.val = k.val; omega
    | ⟨1, _⟩ => show win1_1.index t (1 : Fin 2) * 30 + 1 * (j 1).val = win1_3.index t (1 : Fin 2) * 30 + 1 * (j 1).val; omega
  have hB : iblk1 V c 2 t (ix2 0 (j 1))
      = V c main_v57 (ix2 0 ((((cfg1.win 3).blk t).view.emb j) 1)) := by
    show V c main_v57 (((cfg1.win 2).blk t).view.emb (ix2 0 (j 1))) = _
    refine congrArg (V c main_v57) (funext fun a => Fin.ext ?_)
    match a with
    | ⟨0, _⟩ => show win1_2.index t (0 : Fin 2) * 1 + 1 * 0 = 0; omega
    | ⟨1, _⟩ => show win1_2.index t (1 : Fin 2) * 30 + 1 * (j 1).val = win1_3.index t (1 : Fin 2) * 30 + 1 * (j 1).val; omega
  rw [hB, Finset.sum_congr rfl fun k _ => by rw [hA k, hW k]]

/-- An index of the output array is in point t's block iff each coordinate is in the block's range on its axis. -/
theorem memBlock1 (t : Fin cfg1.N) (i : S100000x30.Idx) :
    i ∈ ((cfg1.win 3).blk t).view.set ↔ ∀ a : Fin 2, win1_3.index t a * S10000x30.size a ≤ (i a).val
      ∧ (i a).val < win1_3.index t a * S10000x30.size a + S10000x30.size a := by
  show i ∈ ((View.whole main_v58).slice (win1_3.rect t)).set ↔ _
  rw [View.set_slice_whole, Rect.mem_set_unit]
  exact Iff.rfl

/-- Every index of the output array lies in the block of the point its row falls to. -/
theorem covered1 (i : S100000x30.Idx) :
    ∃ t : Fin cfg1.N, (cfg1.win 3).flush t = true ∧ i ∈ ((cfg1.win 3).blk t).view.set := by
  have hi0 : (i 0).val < 100000 := (i 0).isLt
  have hi1 : (i 1).val < 30 := (i 1).isLt
  obtain ⟨t, ht⟩ := indexOnto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [memBlock1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 30 ≤ (i 1).val ∧ (i 1).val < win1_3.index t (1 : Fin 2) * 30 + 30; omega

/-- After the launch the output array is the node update of the arrays the launch was entered with. -/
theorem regionArray1 (c : Dev nD) :
    (dat1 (F := Ideal) V c).arrAt 3 cfg1.N = nodeUpdate (V c main_v56) (V c main_arg5) (V c main_v57) :=
  (dat1 (F := Ideal) V c).arrAt_eq_of_cover 3 (nodeUpdate (V c main_v56) (V c main_arg5) (V c main_v57))
    (fun t _ => flushed1 V c t) covered1

end Cert.KernelIdeal.Valued

end
-- ==== Proof.Region2.lean ====
/-
  Launch 2 of the node update, as one function of the arrays it is entered with.

  The launch walks ten grid points; point t takes rows 10000·t … 10000·t + 9999 of the aggregated features, the whole
  weight matrix and the whole bias row, and writes rows 10000·t … 10000·t + 9999 of the output. What point t writes
  back is therefore the block at t of ONE function of the whole arrays, relu (A · W + β) entry by entry, because row
  10000·t + p of that function only reads row 10000·t + p of A. The ten blocks tile the 100000 rows (row r lies in the
  block of point r / 10000), so after the launch the output array holds that function everywhere.
-/
import proofs.«176950_j53764400611947_2_alg».proof.Proof.Gen.KernelIdeal.Frame
import proofs.«176950_j53764400611947_2_alg».proof.Proof.NodeUpdate
import Idealize.ShloMosaic.Lib.Pipeline.Value

set_option maxRecDepth 16384

noncomputable section

namespace Cert.KernelIdeal.Valued

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem origin2 : (![0, 0] : Fin 2 → Nat) = fun _ => 0 := funext fun a => by fin_cases a <;> rfl

/-- The printed index maps over the grid: the feature and output windows move together down the rows, one block per
    point; the weight and bias windows stay at the origin. -/
theorem indexFacts2 : ∀ t : Fin cfg2.N, win2_0.index t (0 : Fin 2) = win2_3.index t (0 : Fin 2)
    ∧ win2_0.index t (1 : Fin 2) = 0 ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 9 :=
  (by decide +kernel : ∀ t : Fin grid2.N, _)

/-- Every block of rows is some point's. -/
theorem indexOnto2 : ∀ q0 : Fin 10, ∃ t : Fin cfg2.N, win2_3.index t = ![q0.val, 0] :=
  (by decide +kernel : ∀ q0 : Fin 10, ∃ t : Fin grid2.N, win2_3.index t = ![q0.val, 0])

/-- What point t writes back is the block at t of the node update of the whole entry arrays. -/
theorem flushed2 (c : Dev nD) (t : Fin cfg2.N) :
    (dat2 (F := Ideal) V c).flushed 3 t
      = ((cfg2.win 3).blk t).view.read (Elt Ideal) (nodeUpdate (V c main_v71) (V c main_arg7) (V c main_v72)) := by
  show (cfg2.win 3).cut (grid2.coords t) ((dat2 V c).after 3 t) = _
  rw [after2_3]
  unfold out2_3
  rw [View.canon_unit_zero origin2]
  simp only [View.ld_unit_zero (S := S10000x30) origin2, View.ld_unit_zero (S := S30x30) origin2,
    View.ld_unit_zero (S := S1x30) origin2]
  obtain ⟨e0, e1, e2, e3, e4, e5, e6, e7⟩ := indexFacts2 t
  funext j
  show k2_pay1 (F := Ideal) (iblk2 V c 0 t) (iblk2 V c 1 t) (iblk2 V c 2 t) j
    = nodeUpdate (V c main_v71) (V c main_arg7) (V c main_v72) (((cfg2.win 3).blk t).view.emb j)
  refine (congrArg (k0_pay1 (F := Ideal) (iblk2 V c 0 t) (iblk2 V c 1 t) (iblk2 V c 2 t))
    (eq_ix2 (n0 := 10000) (n1 := 30) j)).trans ?_
  refine (pay_apply _ _ _ (j 0) (j 1)).trans ?_
  unfold nodeUpdate
  have hA : ∀ k : Fin 30, iblk2 V c 0 t (ix2 (j 0) k)
      = V c main_v71 (ix2 ((((cfg2.win 3).blk t).view.emb j) 0) k) := fun k => by
    show V c main_v71 (((cfg2.win 0).blk t).view.emb (ix2 (j 0) k)) = _
    refine congrArg (V c main_v71) (funext fun a => Fin.ext ?_)
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 30 + 1 * k.val = k.val; omega
  have hW : ∀ k : Fin 30, iblk2 V c 1 t (ix2 k (j 1))
      = V c main_arg7 (ix2 k ((((cfg2.win 3).blk t).view.emb j) 1)) := fun k => by
    show V c main_arg7 (((cfg2.win 1).blk t).view.emb (ix2 k (j 1))) = _
    refine congrArg (V c main_arg7) (funext fun a => Fin.ext ?_)
    match a with
    | ⟨0, _⟩ => show win2_1.index t (0 : Fin 2) * 30 + 1 * k.val = k.val; omega
    | ⟨1, _⟩ => show win2_1.index t (1 : Fin 2) * 30 + 1 * (j 1).val = win2_3.index t (1 : Fin 2) * 30 + 1 * (j 1).val; omega
  have hB : iblk2 V c 2 t (ix2 0 (j 1))
      = V c main_v72 (ix2 0 ((((cfg2.win 3).blk t).view.emb j) 1)) := by
    show V c main_v72 (((cfg2.win 2).blk t).view.emb (ix2 0 (j 1))) = _
    refine congrArg (V c main_v72) (funext fun a => Fin.ext ?_)
    match a with
    | ⟨0, _⟩ => show win2_2.index t (0 : Fin 2) * 1 + 1 * 0 = 0; omega
    | ⟨1, _⟩ => show win2_2.index t (1 : Fin 2) * 30 + 1 * (j 1).val = win2_3.index t (1 : Fin 2) * 30 + 1 * (j 1).val; omega
  rw [hB, Finset.sum_congr rfl fun k _ => by rw [hA k, hW k]]

/-- An index of the output array is in point t's block iff each coordinate is in the block's range on its axis. -/
theorem memBlock2 (t : Fin cfg2.N) (i : S100000x30.Idx) :
    i ∈ ((cfg2.win 3).blk t).view.set ↔ ∀ a : Fin 2, win2_3.index t a * S10000x30.size a ≤ (i a).val
      ∧ (i a).val < win2_3.index t a * S10000x30.size a + S10000x30.size a := by
  show i ∈ ((View.whole main_v73).slice (win2_3.rect t)).set ↔ _
  rw [View.set_slice_whole, Rect.mem_set_unit]
  exact Iff.rfl

/-- Every index of the output array lies in the block of the point its row falls to. -/
theorem covered2 (i : S100000x30.Idx) :
    ∃ t : Fin cfg2.N, (cfg2.win 3).flush t = true ∧ i ∈ ((cfg2.win 3).blk t).view.set := by
  have hi0 : (i 0).val < 100000 := (i 0).isLt
  have hi1 : (i 1).val < 30 := (i 1).isLt
  obtain ⟨t, ht⟩ := indexOnto2 ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [memBlock2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 30 ≤ (i 1).val ∧ (i 1).val < win2_3.index t (1 : Fin 2) * 30 + 30; omega

/-- After the launch the output array is the node update of the arrays the launch was entered with. -/
theorem regionArray2 (c : Dev nD) :
    (dat2 (F := Ideal) V c).arrAt 3 cfg2.N = nodeUpdate (V c main_v71) (V c main_arg7) (V c main_v72) :=
  (dat2 (F := Ideal) V c).arrAt_eq_of_cover 3 (nodeUpdate (V c main_v71) (V c main_arg7) (V c main_v72))
    (fun t _ => flushed2 V c t) covered2

end Cert.KernelIdeal.Valued

end
-- ==== Proof.LibRowScatter.lean ====
/-
  ROW SCATTER-ADD AND ROW GATHER, READ AT AN INDEX.

  An operand is an array of n rows of b entries. A column of m integers names, for each of m update rows, the operand row
  it belongs to. The accumulating scatter adds every update row onto the operand row its integer names (an update whose
  integer names no row, being negative or at least n, is dropped); the gather reads, for each of the m integers, the
  operand row it names after clamping it into [0, n - 1].

  Both operations are defined through the general dimension-number arithmetic of the scatter and gather operations. Here
  that arithmetic is carried out once, for these dimension numbers and ARBITRARY extents n, m, b:

    * update entry (e, q) lands on operand entry (p, q') exactly when q = q' and the e-th integer, read signed, is p;
    * so entry (p, q) of the scatter's result is the operand's entry plus the sum, over the update rows e whose integer
      is p, of the update's entry (e, q);
    * entry (e, q) of the gather's result is the operand's entry (min(max(i, 0), n - 1), q), i the e-th integer.
-/
import Idealize.ShloMosaic.PureOps.Ideal
import Idealize.ShloMosaic.PureOps.Ideal.Laws
import Idealize.ShloMosaic.Lib.ValueIdx

open scoped BigOperators

namespace Cert.Lib

open Idealize.ShloMosaic Idealize.ShloMosaic.ValueIdx

/-! ## The landing index of an update, for any dimension numbers -/

/-- An update index lands on operand index i exactly when, on every operand axis, the signed start plus the window
    coordinate is i's coordinate: being in range on every axis is then automatic, since i is an index of the operand. -/
theorem resultIdx?_eq_some_iff {s si u : Shape} (d : ScatterDims s si u) {w : ℕ} (j : u.Idx) (idx : IVec si w) (i : s.Idx) :
    d.resultIdx? j idx = some i ↔ ∀ a, d.start j idx a + d.window j a = ((i a).val : ℤ) := by
  unfold ScatterDims.resultIdx?
  split
  · rename_i h
    rw [Option.some.injEq, funext_iff]
    refine forall_congr' fun a => ?_
    rw [Fin.ext_iff]
    have := (h a).1
    show (d.start j idx a + d.window j a).toNat = (i a).val ↔ _
    omega
  · rename_i h
    refine ⟨fun h' => (nomatch h'), fun h' => absurd (fun a => ?_) h⟩
    rw [h' a]
    exact ⟨Int.natCast_nonneg _, by exact_mod_cast (i a).isLt⟩

/-- An axis is among the kept axes of a shape exactly when it is not among the removed ones. -/
theorem mem_kept_iff {s : Shape} (axes : List (Fin s.rank)) (a : Fin s.rank) : a ∈ s.kept axes ↔ a ∉ axes := by
  simp [Shape.kept]

/-- Axis 1 of a rank-2 shape is not in the one-axis list [0]. -/
theorem one_not_mem_zero : (1 : Fin 2) ∉ ([0] : List (Fin 2)) := by decide

variable {n m b w : ℕ} {φ : FTy}

/-! ## Rows of updates added onto rows of an operand -/

/-- The dimension numbers of a scatter of the rows of an [m, b] update array onto rows of an [n, b] operand, the row
    chosen by a column [m, 1] of integers: the updates' axis 1 is the window axis, the operand's axis 0 is the inserted
    (scattered) axis, the one component of a scatter index goes to operand axis 0, and the index vector lies along
    axis 1 of the integers. -/
abbrev rowScatter (wf : ScatterDims.WF ⟨2, ![n, b]⟩ ⟨2, ![m, 1]⟩ ⟨2, ![m, b]⟩ [1] [0] [0] 1) :
    ScatterDims ⟨2, ![n, b]⟩ ⟨2, ![m, 1]⟩ ⟨2, ![m, b]⟩ := ⟨[1], [0], [0], 1, wf⟩

section Scatter
variable (wf : ScatterDims.WF ⟨2, ![n, b]⟩ ⟨2, ![m, 1]⟩ ⟨2, ![m, b]⟩ [1] [0] [0] 1)

/-- Update entry (e, q) reads its one start component at entry (e, 0) of the integers. -/
theorem rowScatter_siIdx (e : Fin m) (q : Fin b) (c : Fin (rowScatter wf).scatterDimsToOperandDims.length) :
    (rowScatter wf).siIdx (ix2 e q) c = ix2 e 0 := by
  funext a; refine Fin.ext ?_
  have hc : c.val = 0 := by have : c.val < 1 := c.isLt; omega
  match a with
  | ⟨0, _⟩ => rfl
  | ⟨1, _⟩ => exact hc

/-- On the scattered axis (operand axis 0) the start of update entry (e, q) is the e-th integer, read signed. -/
theorem rowScatter_start0 (idx : IVec ⟨2, ![m, 1]⟩ w) (e : Fin m) (q : Fin b) :
    (rowScatter wf).start (ix2 e q) idx 0 = (idx (ix2 e 0)).toInt := by
  unfold ScatterDims.start
  rw [dif_pos (show (0 : Fin 2) ∈ (rowScatter wf).scatterDimsToOperandDims from List.mem_singleton.mpr rfl),
    rowScatter_siIdx]

/-- On the window axis (operand axis 1) the start is 0: no scatter-index component goes there. -/
theorem rowScatter_start1 (idx : IVec ⟨2, ![m, 1]⟩ w) (e : Fin m) (q : Fin b) :
    (rowScatter wf).start (ix2 e q) idx 1 = 0 := by
  unfold ScatterDims.start
  rw [dif_neg (show (1 : Fin 2) ∉ (rowScatter wf).scatterDimsToOperandDims from one_not_mem_zero)]

/-- On the scattered axis the window coordinate is 0: that axis is inserted. -/
theorem rowScatter_window0 (e : Fin m) (q : Fin b) : (rowScatter wf).window (ix2 e q) 0 = 0 := by
  unfold ScatterDims.window
  rw [dif_neg (show (0 : Fin 2) ∉ (rowScatter wf).sKept from fun h => (mem_kept_iff _ _).mp h (List.mem_singleton.mpr rfl))]

/-- On the window axis the window coordinate of update entry (e, q) is q. -/
theorem rowScatter_window1 (e : Fin m) (q : Fin b) : (rowScatter wf).window (ix2 e q) 1 = q.val := by
  unfold ScatterDims.window
  rw [dif_pos (show (1 : Fin 2) ∈ (rowScatter wf).sKept from (mem_kept_iff _ _).mpr one_not_mem_zero)]
  rfl

/-- WHERE AN UPDATE ENTRY LANDS: update entry (e, q) lands on operand entry (p, q') exactly when it is in the same column,
    q = q', and the e-th integer, read signed, is the row number p. -/
theorem rowScatter_resultIdx (idx : IVec ⟨2, ![m, 1]⟩ w) (e : Fin m) (q : Fin b) (p : Fin n) (q' : Fin b) :
    (rowScatter wf).resultIdx? (ix2 e q) idx = some (ix2 p q') ↔ (q = q' ∧ (idx (ix2 e 0)).toInt = (p.val : ℤ)) := by
  rw [resultIdx?_eq_some_iff, Fin.forall_fin_two, rowScatter_start0, rowScatter_start1, rowScatter_window0,
    rowScatter_window1, Fin.ext_iff]
  show (idx (ix2 e 0)).toInt + ((0 : ℕ) : ℤ) = (p.val : ℤ) ∧ (0 : ℤ) + (q.val : ℤ) = (q'.val : ℤ) ↔ _
  omega

/-- THE ACCUMULATING ROW SCATTER READ AT (p, q), at the ideal values: the operand's entry plus the sum, over the update
    rows e whose integer (read signed) is p, of the update's entry (e, q). -/
theorem rowScatterAdd_apply (x : FVec Ideal ⟨2, ![n, b]⟩ φ) (idx : IVec ⟨2, ![m, 1]⟩ w) (upd : FVec Ideal ⟨2, ![m, b]⟩ φ)
    (p : Fin n) (q : Fin b) :
    Host.scatterAdd (rowScatter wf) x idx upd (ix2 p q)
      = x (ix2 p q) + ∑ e ∈ Finset.univ.filter (fun e : Fin m => (idx (ix2 e 0)).toInt = (p.val : ℤ)), upd (ix2 e q) := by
  show Ideal.hostScatterAdd (rowScatter wf) x idx upd (ix2 p q) = _
  unfold Ideal.hostScatterAdd
  congr 1
  rw [Finset.sum_filter, sum_idx2, Finset.sum_filter]
  refine Finset.sum_congr rfl fun e _ => ?_
  simp only [rowScatter_resultIdx]
  by_cases hT : (idx (ix2 e 0)).toInt = (p.val : ℤ)
  · simp [hT]
  · simp [hT]

end Scatter

/-! ## Rows of an operand gathered by a column of integers -/

/-- The dimension numbers of a gather of rows of an [n, b] operand by a column [m, 1] of integers into an [m, b] result:
    slices of one row (sizes [1, b]), the result's axis 1 the offset axis, the operand's axis 0 collapsed, the one
    component of a start index going to operand axis 0, the index vector along axis 1 of the integers, no batching. -/
abbrev rowGather (wf : GatherDims.WF ⟨2, ![n, b]⟩ ⟨2, ![m, 1]⟩ ⟨2, ![m, b]⟩ [1] [0] [] [0] [] 1 ![1, b]) :
    GatherDims ⟨2, ![n, b]⟩ ⟨2, ![m, 1]⟩ ⟨2, ![m, b]⟩ where
  offsetDims := [1]
  collapsedSliceDims := [0]
  operandBatchingDims := []
  startIndicesBatchingDims := []
  startIndexMap := [0]
  indexVectorDim := 1
  sliceSizes := ![1, b]
  wf := wf

section Gather
variable (wf : GatherDims.WF ⟨2, ![n, b]⟩ ⟨2, ![m, 1]⟩ ⟨2, ![m, b]⟩ [1] [0] [] [0] [] 1 ![1, b])

/-- Result entry (e, q) reads its one start component at entry (e, 0) of the integers. -/
theorem rowGather_siIdx (e : Fin m) (q : Fin b) (c : Fin (rowGather wf).startIndexMap.length) :
    (rowGather wf).siIdx (ix2 e q) c = ix2 e 0 := by
  funext a; refine Fin.ext ?_
  have hc : c.val = 0 := by have : c.val < 1 := c.isLt; omega
  match a with
  | ⟨0, _⟩ => rfl
  | ⟨1, _⟩ => exact hc

/-- On the collapsed axis (operand axis 0) the slice of result entry (e, q) starts at the e-th integer, read signed and
    clamped into [0, n - 1]. -/
theorem rowGather_start0 (idx : IVec ⟨2, ![m, 1]⟩ w) (e : Fin m) (q : Fin b) :
    (rowGather wf).start (ix2 e q) idx 0 = min (idx (ix2 e 0)).toInt.toNat (n - 1) := by
  unfold GatherDims.start
  rw [dif_pos (show (0 : Fin 2) ∈ (rowGather wf).startIndexMap from List.mem_singleton.mpr rfl), rowGather_siIdx]
  rfl

/-- On the offset axis (operand axis 1) the slice starts at 0: no start-index component goes there. -/
theorem rowGather_start1 (idx : IVec ⟨2, ![m, 1]⟩ w) (e : Fin m) (q : Fin b) :
    (rowGather wf).start (ix2 e q) idx 1 = 0 := by
  unfold GatherDims.start
  rw [dif_neg (show (1 : Fin 2) ∉ (rowGather wf).startIndexMap from one_not_mem_zero)]

/-- On the collapsed axis the offset coordinate is 0. -/
theorem rowGather_offCoord0 (e : Fin m) (q : Fin b) : (rowGather wf).offCoord (ix2 e q) 0 = 0 :=
  GatherDims.offCoord_eq_zero _ _ _ (fun h => ((GatherDims.mem_sKept _ _).mp h).1 (List.mem_singleton.mpr rfl))

/-- On the offset axis the offset coordinate of result entry (e, q) is q. -/
theorem rowGather_offCoord1 (e : Fin m) (q : Fin b) : (rowGather wf).offCoord (ix2 e q) 1 = q.val := by
  unfold GatherDims.offCoord
  rw [dif_pos (show (1 : Fin 2) ∈ (rowGather wf).sKept from
    (GatherDims.mem_sKept _ _).mpr ⟨one_not_mem_zero, List.not_mem_nil⟩)]
  rfl

end Gather

/-- THE ROW GATHER READ AT (e, q): the operand's entry in column q of the row named by the e-th integer, read signed and
    clamped into [0, n - 1]. -/
theorem rowGather_apply (hn : 0 < n)
    (wf : GatherDims.WF ⟨2, ![n, b]⟩ ⟨2, ![m, 1]⟩ ⟨2, ![m, b]⟩ [1] [0] [] [0] [] 1 ![1, b]) {α : Type}
    (x : (⟨2, ![n, b]⟩ : Shape).Idx → α) (idx : IVec ⟨2, ![m, 1]⟩ w) (e : Fin m) (q : Fin b) :
    Host.gather (rowGather wf) x idx (ix2 e q) = x (ix2 ⟨min (idx (ix2 e 0)).toInt.toNat (n - 1), by omega⟩ q) := by
  unfold Host.gather
  congr 1
  funext a
  refine Fin.ext ?_
  revert a
  refine Fin.forall_fin_two.mpr ⟨?_, ?_⟩
  · show (rowGather wf).start (ix2 e q) idx 0 + (rowGather wf).batchCoord (ix2 e q) 0
      + (rowGather wf).offCoord (ix2 e q) 0 = min (idx (ix2 e 0)).toInt.toNat (n - 1)
    rw [rowGather_start0, rowGather_offCoord0, GatherDims.batchCoord_eq_zero _ _ _ List.not_mem_nil]
    omega
  · show (rowGather wf).start (ix2 e q) idx 1 + (rowGather wf).batchCoord (ix2 e q) 1
      + (rowGather wf).offCoord (ix2 e q) 1 = q.val
    rw [rowGather_start1, rowGather_offCoord1, GatherDims.batchCoord_eq_zero _ _ _ List.not_mem_nil]
    omega

end Cert.Lib
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«176950_j53764400611947_2_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.LibRealEntries.lean ====
/-
  Arrays of real numbers, and the host operations that keep them so.

  On the extended reals an array all of whose entries are real numbers stays one under: re-indexing (a broadcast, a
  gather, a slice), entrywise sums and products, a constant that denotes a real, an accumulating scatter (each entry
  plus a finite sum of updates), a plain matrix product read as a sum, joining two vectors end to end, and the guarded
  reciprocal square root  select (d > 0) (rsqrt d) 0  (rsqrt of a positive real is real; elsewhere the guard picks 0).
-/
import Idealize.ShloMosaic.PureOps.Ideal
import Idealize.ShloMosaic.PureOps.Ideal.Laws
import Idealize.ShloMosaic.Lib.Pipeline.Value
import Idealize.ShloMosaic.Lib.ValueIdx
import proofs.«176950_j53764400611947_2_alg».proof.Proof.LibERealSum

noncomputable section

namespace Cert.Lib

open Idealize.ShloMosaic Idealize.ShloMosaic.ValueIdx

/-- Every entry is a real number. -/
def AllReal {ι : Type} (v : ι → EReal) : Prop := ∀ i, ∃ r : ℝ, v i = (r : EReal)

/-- An array read through any index map. -/
theorem AllReal.reindex {ι κ : Type} {v : ι → EReal} (h : AllReal v) (f : κ → ι) : AllReal (fun j => v (f j)) :=
  fun j => h (f j)

variable {s si t u : Shape} {φ : FTy}

/-- A host gather reads entries of its operand. -/
theorem allReal_gather {w : Nat} (d : GatherDims s si t) (x : s.Idx → EReal) (idx : IVec si w) (h : AllReal x) :
    AllReal (Host.gather d x idx) := fun j => h _

/-- A broadcast reads entries of its operand. -/
theorem allReal_broadcastInDim (dims : Fin s.rank → Fin t.rank) (hb : s.BroadcastsInDim t dims) (x : s.Idx → EReal)
    (h : AllReal x) : AllReal (broadcastInDim t dims hb x) := fun j => h _

/-- An entrywise product. -/
theorem allReal_mulf (a b : FVec Ideal s φ) (ha : AllReal a) (hb : AllReal b) : AllReal (mulf a b) := fun i => by
  obtain ⟨ra, ha⟩ := ha i
  obtain ⟨rb, hb⟩ := hb i
  exact ⟨ra * rb, by show a i * b i = _; rw [ha, hb, EReal.coe_mul]⟩

/-- An entrywise sum. -/
theorem allReal_addf (a b : FVec Ideal s φ) (ha : AllReal a) (hb : AllReal b) : AllReal (addf a b) := fun i => by
  obtain ⟨ra, ha⟩ := ha i
  obtain ⟨rb, hb⟩ := hb i
  exact ⟨ra + rb, by show a i + b i = _; rw [ha, hb, EReal.coe_add]⟩

/-- The zero splat. -/
theorem allReal_zero : AllReal (constant (F := Ideal) s .f32 0x00000000#32) :=
  fun _ => ⟨0, by show Ideal.ofBits .f32 0x00000000#32 = _; rw [Ideal.ofBits_zero_f32]; rfl⟩

/-- A real plus a finite sum of reals is a real. -/
theorem exists_real_add_sum {ι : Type} (S : Finset ι) (a : EReal) (upd : ι → EReal) (ha : ∃ r : ℝ, a = (r : EReal))
    (hu : AllReal upd) : ∃ r : ℝ, a + ∑ j ∈ S, upd j = (r : EReal) := by
  obtain ⟨ra, ha⟩ := ha
  choose f hf using hu
  exact ⟨ra + ∑ j ∈ S, f j, by rw [ha, Finset.sum_congr rfl (fun j _ => hf j), sum_coe, EReal.coe_add]⟩

/-- An accumulating scatter: each entry of the operand plus the finite sum of the updates that land on it. -/
theorem allReal_scatterAdd {w : Nat} (d : ScatterDims s si u) (x : FVec Ideal s φ) (idx : IVec si w) (upd : FVec Ideal u φ)
    (hx : AllReal x) (hu : AllReal upd) : AllReal (Host.scatterAdd d x idx upd) := fun i => by
  show ∃ r : ℝ, Ideal.hostScatterAdd d x idx upd i = (r : EReal)
  unfold Ideal.hostScatterAdd
  exact exists_real_add_sum _ _ _ (hx i) hu

/-- A finite sum of products of reals. -/
theorem exists_real_sum_mul {ι : Type} [Fintype ι] (a b : ι → EReal) (ha : AllReal a) (hb : AllReal b) :
    ∃ r : ℝ, ∑ k, a k * b k = (r : EReal) := by
  choose f hf using ha
  choose g hg using hb
  exact ⟨∑ k, f k * g k, by
    rw [Finset.sum_congr rfl (fun k _ => by rw [hf k, hg k, ← EReal.coe_mul]), sum_coe]⟩

/-- The guarded reciprocal square root of a real: rsqrt where the argument is positive, 0 elsewhere. -/
theorem exists_real_guarded_rsqrt (r : ℝ) :
    ∃ q : ℝ, Scalar.select (Ideal.cmp .ogt (r : EReal) (Ideal.ofBits .f32 0x00000000#32)) (Ideal.rsqrt (r : EReal))
      (Ideal.ofBits .f32 0x00000000#32) = (q : EReal) := by
  rw [Ideal.ofBits_zero_f32]
  unfold Scalar.select Ideal.cmp
  by_cases h : (0 : EReal) < (r : EReal)
  · have hr : 0 < r := EReal.coe_pos.mp h
    refine ⟨(Real.sqrt r)⁻¹, ?_⟩
    simp only [h, decide_true, BitVec.ofBool_true, if_true]
    rw [Ideal.rsqrt_coe, if_neg (not_lt.mpr hr.le), if_neg hr.ne']
  · refine ⟨0, ?_⟩
    simp only [h, decide_false, BitVec.ofBool_false]
    rfl

end Cert.Lib

end
-- ==== Proof.LayerLaw.lean ====
/-
  Aggregating before or after a linear map.

  Let S be a finite set of edges, H e k the k-th feature of edge e's source row, N e the edge's weight and w k one
  column of a weight matrix, all real numbers. Summing the weighted rows first and applying the column afterwards,

      ∑ k, (∑ e ∈ S, H e k · N e) · w k,

  is the same number as applying the column to every row first and summing the weighted results,

      ∑ e ∈ S, (∑ k, H e k · w k) · N e:

  both are the double sum of H e k · N e · w k. On the extended reals the identity needs the entries to be real
  (products do not distribute over sums of opposite infinities), so it is stated for extended reals that are known
  to be real, with the zero the accumulation starts from kept in place on both sides.
-/
import proofs.«176950_j53764400611947_2_alg».proof.Proof.LibERealSum
import Mathlib.Algebra.BigOperators.Ring.Finset
import Mathlib.Tactic.Ring

namespace Cert.Lib

open scoped BigOperators

/-- The real identity: a linear map commutes with a weighted sum of rows. -/
theorem real_agg_comm {ι κ : Type} [Fintype κ] (S : Finset ι) (h : ι → κ → ℝ) (n : ι → ℝ) (w : κ → ℝ) :
    ∑ k, (0 + ∑ e ∈ S, h e k * n e) * w k = 0 + ∑ e ∈ S, (∑ k, h e k * w k) * n e := by
  simp only [zero_add, Finset.sum_mul]
  rw [Finset.sum_comm]
  refine Finset.sum_congr rfl fun e _ => Finset.sum_congr rfl fun k _ => by ring

/-- The same on extended reals that are real numbers, the accumulation started from an extended real equal to 0. -/
theorem ereal_agg_comm {ι κ : Type} [Fintype κ] (S : Finset ι) (H : ι → κ → EReal) (N : ι → EReal) (W : κ → EReal)
    (z : κ → EReal) (z' : EReal) (hz : ∀ k, z k = 0) (hz' : z' = 0)
    (hH : ∀ e k, ∃ r : ℝ, H e k = (r : EReal)) (hN : ∀ e, ∃ r : ℝ, N e = (r : EReal)) (hW : ∀ k, ∃ r : ℝ, W k = (r : EReal)) :
    ∑ k, (z k + ∑ e ∈ S, H e k * N e) * W k = z' + ∑ e ∈ S, (∑ k, H e k * W k) * N e := by
  choose h hh using hH
  choose n hn using hN
  choose w hw using hW
  have e0 : (0 : EReal) = ((0 : ℝ) : EReal) := rfl
  simp only [hh, hn, hw, hz, hz', e0, ← EReal.coe_mul, sum_coe, ← EReal.coe_add]
  exact congrArg _ (real_agg_comm S h n w)

end Cert.Lib
-- ==== Proof.LibGcnLayer.lean ====
/-
  One graph-convolution layer, computed in two orders.

  Nodes carry rows of b features. Every edge e has a source row src e, a destination row and a weight. A layer
  gathers the source rows, scales row e by the edge's weight, adds the scaled rows onto their destination rows, and
  multiplies by a b × b matrix W. The matrix product may come last — aggregate the features, then multiply — or
  first — multiply every node's row, then gather, scale and aggregate: entry (p, q) is in both orders

      ∑ over the edges e that land on p, over k, of  h (src e, k) · weight e · W (k, q)

  as long as every number involved is real. Here the aggregation is the accumulating row scatter into an all-zero
  array, the gather the clamped row gather, and the edge weight an array nb of the updates' shape that is constant
  along each row; entries are extended reals that are known to be real.
-/
import proofs.«176950_j53764400611947_2_alg».proof.Proof.LibRowScatter
import proofs.«176950_j53764400611947_2_alg».proof.Proof.LibHostDot2
import proofs.«176950_j53764400611947_2_alg».proof.Proof.LibRealEntries
import proofs.«176950_j53764400611947_2_alg».proof.Proof.LayerLaw

noncomputable section

namespace Cert.Lib

open Idealize.ShloMosaic Idealize.ShloMosaic.ValueIdx

variable {n m b w : ℕ}

/-- Aggregating the gathered, weighted rows and then multiplying by W gives, entry by entry, what multiplying by W
    first and then gathering, weighting and aggregating gives. -/
theorem gcnLayer_entry
    (wfS : ScatterDims.WF ⟨2, ![n, b]⟩ ⟨2, ![m, 1]⟩ ⟨2, ![m, b]⟩ [1] [0] [0] 1)
    (wfG : GatherDims.WF ⟨2, ![n, b]⟩ ⟨2, ![m, 1]⟩ ⟨2, ![m, b]⟩ [1] [0] [] [0] [] 1 ![1, b])
    (wfD : DotDims.WF ⟨2, ![n, b]⟩ ⟨2, ![b, b]⟩ ⟨2, ![n, b]⟩ [1] [0] [0] [1] [] [])
    (hn : 0 < n)
    (h : FVec Ideal ⟨2, ![n, b]⟩ .f32) (W : FVec Ideal ⟨2, ![b, b]⟩ .f32)
    (z : FVec Ideal ⟨2, ![n, b]⟩ .f32) (srcI dstI : IVec ⟨2, ![m, 1]⟩ w) (nb : FVec Ideal ⟨2, ![m, b]⟩ .f32)
    (hz : ∀ i, z i = 0) (hh : AllReal h) (hW : AllReal W) (hnb : AllReal nb)
    (hcol : ∀ e q q', nb (ix2 e q) = nb (ix2 e q')) (p : Fin n) (q : Fin b) :
    ∑ k : Fin b, Host.scatterAdd (rowScatter wfS) z dstI (mulf (Host.gather (rowGather wfG) h srcI) nb) (ix2 p k) * W (ix2 k q)
      = Host.scatterAdd (rowScatter wfS) z dstI
          (mulf (Host.gather (rowGather wfG) (Host.dotGeneral (plain2 wfD) none h W) srcI) nb) (ix2 p q) := by
  have hL : ∀ k : Fin b,
      Host.scatterAdd (rowScatter wfS) z dstI (mulf (Host.gather (rowGather wfG) h srcI) nb) (ix2 p k)
        = z (ix2 p k) + ∑ e ∈ Finset.univ.filter (fun e : Fin m => (dstI (ix2 e 0)).toInt = (p.val : ℤ)),
            h (ix2 ⟨min (srcI (ix2 e 0)).toInt.toNat (n - 1), by omega⟩ k) * nb (ix2 e q) := fun k => by
    rw [rowScatterAdd_apply]
    refine congrArg (z (ix2 p k) + ·) (Finset.sum_congr rfl fun e _ => ?_)
    rw [mulf_apply, rowGather_apply hn, hcol e k q]
  have hR : Host.scatterAdd (rowScatter wfS) z dstI
        (mulf (Host.gather (rowGather wfG) (Host.dotGeneral (plain2 wfD) none h W) srcI) nb) (ix2 p q)
      = z (ix2 p q) + ∑ e ∈ Finset.univ.filter (fun e : Fin m => (dstI (ix2 e 0)).toInt = (p.val : ℤ)),
          (∑ k : Fin b, h (ix2 ⟨min (srcI (ix2 e 0)).toInt.toNat (n - 1), by omega⟩ k) * W (ix2 k q)) * nb (ix2 e q) := by
    rw [rowScatterAdd_apply]
    refine congrArg (z (ix2 p q) + ·) (Finset.sum_congr rfl fun e _ => ?_)
    rw [mulf_apply, rowGather_apply hn, hostDot2_apply]
  rw [hR, Finset.sum_congr rfl fun k _ => by rw [hL k]]
  exact ereal_agg_comm _ (fun e k => h (ix2 ⟨min (srcI (ix2 e 0)).toInt.toNat (n - 1), by omega⟩ k))
    (fun e => nb (ix2 e q)) (fun k => W (ix2 k q)) (fun k => z (ix2 p k)) (z (ix2 p q))
    (fun k => hz _) (hz _) (fun e k => hh _) (fun e => hnb _) (fun k => hW _)

end Cert.Lib

end
-- ==== Proof.LayerBridge.lean ====
/-
  One layer of the kernel program against one layer of the reference.

  The kernel aggregates first — gather the rows of the layer input h at the source indices, weight them, add them onto
  their destination rows — and then runs the node update relu (· W + β) on the aggregated rows. The reference
  multiplies h by W first, gathers, weights and aggregates the products, adds the bias row and takes the maximum
  with the zero array. With every entry of h, of W and of the weights a real number the two arrays are equal, entry
  by entry: the bias and the maximum are the same on both sides, and under them stands the exchange of the
  aggregation with the matrix product.
-/
import proofs.«176950_j53764400611947_2_alg».proof.Proof.NodeUpdate
import proofs.«176950_j53764400611947_2_alg».proof.Proof.LibGcnLayer
import proofs.«176950_j53764400611947_2_alg».proof.ReferenceIdeal
import proofs.«176950_j53764400611947_2_alg».proof.Proof.Gen.ReferenceIdeal
import proofs.«176950_j53764400611947_2_alg».proof.Proof.Gen.KernelIdeal

noncomputable section

namespace Cert.KernelIdeal.Valued

open Cert.KernelIdeal Cert.KernelIdeal.Gen Idealize.ShloMosaic Idealize.ShloMosaic.ValueIdx Cert.Lib

/-- A bias vector made a row reads the vector at the column. -/
theorem biasRow_apply (bv : FVec Ideal S30 .f32) (q : Fin 30) :
    shapeCast S1x30 bv shapeCasts_S30_S1x30 (ix2 0 q) = bv (ix1 q) :=
  shapeCast_apply bv shapeCasts_S30_S1x30 (ix2 0 q) (ix1 q) (by
    simp [Shape.rowMajor_val_two, Shape.rowMajor_val_one])

/-- The reference's bias: the vector made a row, the row repeated down the node rows, reads the vector at the column. -/
theorem refBias_apply (bv : FVec Ideal Cert.ReferenceIdeal.S30 .f32) (p : Fin 100000) (q : Fin 30) :
    broadcastInDim Cert.ReferenceIdeal.S100000x30 ![0, 1] Cert.ReferenceIdeal.Facts₀.bcast_S1x30_S100000x30_0_1
      (broadcastInDim Cert.ReferenceIdeal.S1x30 ![1] Cert.ReferenceIdeal.Facts₀.bcast_S30_S1x30_1 bv) (ix2 p q) = bv (ix1 q) := by
  rw [broadcastInDim_apply _ _ _ (ix2 p q) (ix2 0 q) (fun a => by
        match a with
        | ⟨0, _⟩ => rfl
        | ⟨1, _⟩ => rfl),
    broadcastInDim_apply _ _ _ (ix2 0 q) (ix1 q) (fun a => by
        match a with
        | ⟨0, _⟩ => rfl)]

/-- The node update read at an entry. -/
theorem nodeUpdate_apply (A : S100000x30.Idx → EReal) (W : S30x30.Idx → EReal) (β : S1x30.Idx → EReal)
    (p : Fin 100000) (q : Fin 30) :
    nodeUpdate A W β (ix2 p q) = max (∑ k : Fin 30, A (ix2 p k) * W (ix2 k q) + β (ix2 0 q)) 0 := rfl

/-- The all-zero array the kernel aggregates into reads 0, -/
theorem kerZero_apply (j : S100000x30.Idx) :
    broadcastInDim S100000x30 ![] bcast_S_S100000x30 (constant (F := Ideal) S_ .f32 0x00000000#32) j = 0 :=
  Ideal.ofBits_zero_f32

/-- and so does the reference's. -/
theorem refZero_apply (j : Cert.ReferenceIdeal.S100000x30.Idx) :
    broadcastInDim Cert.ReferenceIdeal.S100000x30 ![] Cert.ReferenceIdeal.Facts₀.bcast_S_S100000x30 (constant (F := Ideal) Cert.ReferenceIdeal.S_ .f32 0x00000000#32) j = 0 :=
  Ideal.ofBits_zero_f32

-- the host operations stay folded below: an entry of an accumulating scatter is a sum over millions of update indices
attribute [local irreducible] Host.scatterAdd Host.gather

/-- One layer: the kernel's aggregate-then-update equals the reference's multiply-then-aggregate, bias and relu. -/
theorem layer_bridge (h : FVec Ideal S100000x30 .f32) (W : FVec Ideal S30x30 .f32) (bv : FVec Ideal S30 .f32)
    (srcI dstI : IVec S3300000x1 32) (nb : FVec Ideal S3300000x30 .f32)
    (hh : AllReal h) (hW : AllReal W) (hnb : AllReal nb) (hcol : ∀ e q q', nb (ix2 e q) = nb (ix2 e q')) :
    nodeUpdate (Host.scatterAdd scatter_S100000x30_S3300000x1_S3300000x30_1_0_0_1
        (broadcastInDim S100000x30 ![] bcast_S_S100000x30 (constant S_ .f32 0x00000000#32)) dstI
        (mulf (Host.gather gather_S100000x30_S3300000x1_S3300000x30_1_0_n_n_0_1_130 h srcI) nb))
      W (shapeCast S1x30 bv shapeCasts_S30_S1x30)
    = maximumf (addf (Host.scatterAdd Cert.ReferenceIdeal.scatter_S100000x30_S3300000x1_S3300000x30_1_0_0_1
          (broadcastInDim Cert.ReferenceIdeal.S100000x30 ![] Cert.ReferenceIdeal.Facts₀.bcast_S_S100000x30 (constant Cert.ReferenceIdeal.S_ .f32 0x00000000#32)) dstI
          (mulf (Host.gather Cert.ReferenceIdeal.gather_S100000x30_S3300000x1_S3300000x30_1_0_n_n_0_1_130
            (Host.dotGeneral Cert.ReferenceIdeal.dot_S100000x30_S30x30_S100000x30_1_0_0_1_n_n none h W) srcI) nb))
        (broadcastInDim Cert.ReferenceIdeal.S100000x30 ![0, 1] Cert.ReferenceIdeal.Facts₀.bcast_S1x30_S100000x30_0_1
          (broadcastInDim Cert.ReferenceIdeal.S1x30 ![1] Cert.ReferenceIdeal.Facts₀.bcast_S30_S1x30_1 bv)))
      (broadcastInDim Cert.ReferenceIdeal.S100000x30 ![] Cert.ReferenceIdeal.Facts₀.bcast_S_S100000x30 (constant Cert.ReferenceIdeal.S_ .f32 0x00000000#32)) := by
  funext i
  obtain ⟨p, q, rfl⟩ : ∃ (p : Fin 100000) (q : Fin 30), i = ix2 p q := ⟨i 0, i 1, eq_ix2 i⟩
  rw [nodeUpdate_apply, maximumf_apply, addf_apply, biasRow_apply, refBias_apply, refZero_apply]
  refine congrArg (fun s => max (s + bv (ix1 q)) 0) ?_
  exact gcnLayer_entry (n := 100000) (m := 3300000) (b := 30)
    scatter_S100000x30_S3300000x1_S3300000x30_1_0_0_1.wf gather_S100000x30_S3300000x1_S3300000x30_1_0_n_n_0_1_130.wf
    Cert.ReferenceIdeal.dot_S100000x30_S30x30_S100000x30_1_0_0_1_n_n.wf (by omega) h W
    (broadcastInDim S100000x30 ![] bcast_S_S100000x30 (constant S_ .f32 0x00000000#32)) srcI dstI nb
    kerZero_apply hh hW hnb hcol p q

end Cert.KernelIdeal.Valued

end
-- ==== Proof.LibRealMore.lean ====
/-
  More operations that keep an array real.

  Beside sums, products, gathers, broadcasts and accumulating scatters (the companion file), an array all of whose
  entries are real numbers stays so under an entrywise maximum, under the host's matrix product (each entry a finite
  sum of products), and under the reciprocal square root of an array that was first clamped below by 1: the maximum
  of a real and 1 is a real number at least 1, and the reciprocal square root of a positive real is a real number.
  The float words 0x3F800000 and 0x00000000 denote the reals 1 and 0.
-/
import proofs.«176950_j53764400611947_2_alg».proof.Proof.LibRealEntries

noncomputable section

namespace Cert.Lib

open Idealize.ShloMosaic Idealize.ShloMosaic.ValueIdx

variable {s sl sr so : Shape} {φ φ₁ φ₂ : FTy}

/-- The float word of 1.0 denotes the real number 1. -/
theorem ofBits_one_f32 : Ideal.ofBits .f32 0x3F800000#32 = ((1 : ℝ) : EReal) := by
  simp [Ideal.ofBits, Ideal.ieee, -EReal.coe_mul]; norm_num

/-- A scalar constant that denotes a real, repeated over any shape, is an array of reals. -/
theorem allReal_splat (t : Shape) (hb : (⟨0, ![]⟩ : Shape).BroadcastsInDim t (![] : Fin 0 → Fin t.rank)) (w : BitVec 32)
    (hw : ∃ r : ℝ, Ideal.ofBits .f32 w = (r : EReal)) :
    AllReal (broadcastInDim t ![] hb (constant (F := Ideal) ⟨0, ![]⟩ .f32 w)) := fun _ => hw

/-- The maximum of two reals is a real. -/
theorem exists_real_max {a b : EReal} (ha : ∃ r : ℝ, a = (r : EReal)) (hb : ∃ r : ℝ, b = (r : EReal)) :
    ∃ r : ℝ, max a b = (r : EReal) := by
  obtain ⟨ra, rfl⟩ := ha
  obtain ⟨rb, rfl⟩ := hb
  exact ⟨max ra rb, (EReal.coe_strictMono.monotone.map_max).symm⟩

/-- An entrywise maximum. -/
theorem allReal_maximumf (a b : FVec Ideal s φ) (ha : AllReal a) (hb : AllReal b) : AllReal (maximumf a b) :=
  fun i => exists_real_max (ha i) (hb i)

/-- The host's matrix product: each entry is a finite sum of products of entries. -/
theorem allReal_dotGeneral (d : DotDims sl sr so) (l : FVec Ideal sl φ₁) (r : FVec Ideal sr φ₂)
    (hl : AllReal l) (hr : AllReal r) : AllReal (Host.dotGeneral d none l r) := fun i => by
  show ∃ q : ℝ, FloatOps.dotGeneral d none .single l r i = (q : EReal)
  rw [Ideal.dotGeneral_apply]
  exact exists_real_sum_mul _ _ (fun k => hl _) (fun k => hr _)

/-- The reciprocal square root of max (a, 1): a real number whenever a is. -/
theorem exists_real_rsqrt_max_one {a : EReal} (ha : ∃ r : ℝ, a = (r : EReal)) :
    ∃ q : ℝ, Ideal.rsqrt (max a (Ideal.ofBits .f32 0x3F800000#32)) = (q : EReal) := by
  obtain ⟨r, rfl⟩ := ha
  rw [ofBits_one_f32, ← EReal.coe_strictMono.monotone.map_max, Ideal.rsqrt_coe]
  have h1 : (1 : ℝ) ≤ max r 1 := le_max_right r 1
  have hpos : (0 : ℝ) < max r 1 := lt_of_lt_of_le one_pos h1
  rw [if_neg (not_lt.mpr hpos.le), if_neg hpos.ne']
  exact ⟨_, rfl⟩

/-- The host's reciprocal square root of an array of reals clamped below by the splat of 1. -/
theorem allReal_rsqrt_max_one (hb : (⟨0, ![]⟩ : Shape).BroadcastsInDim s (![] : Fin 0 → Fin s.rank))
    (a : FVec Ideal s .f32) (ha : AllReal a) :
    AllReal (Host.rsqrt (maximumf a (broadcastInDim s ![] hb (constant (F := Ideal) ⟨0, ![]⟩ .f32 0x3F800000#32)))) :=
  fun i => exists_real_rsqrt_max_one (ha i)

end Cert.Lib

end
-- ==== Proof.RefFacts.lean ====
/-
  Real entries along the reference program.

  The degree of a node is an accumulating scatter of ones into zeros: a real number. Clamped below by 1 and passed
  through the reciprocal square root it stays real (the clamp makes it positive), so every edge weight
  dinv[src] · dinv[dst] is real, whatever the edge list holds. The weights repeated across the 30 features do not
  depend on the feature. And a layer's output — aggregate the weighted gathered rows of (input · W), add the bias,
  take the maximum with 0 — is an array of reals when the layer's input, W and bias are.
-/
import proofs.«176950_j53764400611947_2_alg».proof.Proof.Gen.ReferenceIdeal.Read
import proofs.«176950_j53764400611947_2_alg».proof.Proof.LibRealMore

noncomputable section

namespace Cert.ReferenceIdeal.RefFacts

open Cert.ReferenceIdeal Cert.ReferenceIdeal.Read Idealize.ShloMosaic Idealize.ShloMosaic.ValueIdx Cert.Lib
open Cert.ReferenceIdeal.Facts₀

variable (x1 : IVec S2x3200000 32)

/-- Every node's degree is a real number. -/
theorem deg_real : AllReal (val_main_v10 (F := Ideal) x1) := by
  unfold val_main_v10
  refine allReal_scatterAdd _ _ _ _ ?_ ?_
  · unfold val_main_v8 val_main_cst_0
    exact allReal_splat _ _ _ ⟨0, Ideal.ofBits_zero_f32⟩
  · unfold val_main_v7 val_main_cst
    exact allReal_splat _ _ _ ⟨1, ofBits_one_f32⟩

/-- So is rsqrt (max (degree, 1)). -/
theorem dinv_real : AllReal (val_main_v13 (F := Ideal) x1) := by
  unfold val_main_v13 val_main_v12 val_main_v11 val_main_cst_1
  exact allReal_rsqrt_max_one _ _ (deg_real x1)

/-- Every edge weight is a real number. -/
theorem norm_real : AllReal (val_main_v28 (F := Ideal) x1) := by
  unfold val_main_v28 val_main_v20 val_main_v27
  exact allReal_mulf _ _ (allReal_gather _ _ _ (dinv_real x1)) (allReal_gather _ _ _ (dinv_real x1))

/-- The edge weights repeated across the 30 features are real, -/
theorem nb_real_val_main_v38 : AllReal (val_main_v38 (F := Ideal) x1) := by
  unfold val_main_v38 val_main_v37
  exact allReal_broadcastInDim _ _ _ (allReal_broadcastInDim _ _ _ (norm_real x1))
/-- and constant along each row. -/
theorem nb_col_val_main_v38 (e : Fin 3300000) (q q' : Fin 30) :
    val_main_v38 (F := Ideal) x1 (ix2 e q) = val_main_v38 (F := Ideal) x1 (ix2 e q') := by
  rw [val_main_v38_apply, val_main_v38_apply]

/-- The edge weights repeated across the 30 features are real, -/
theorem nb_real_val_main_v56 : AllReal (val_main_v56 (F := Ideal) x1) := by
  unfold val_main_v56 val_main_v55
  exact allReal_broadcastInDim _ _ _ (allReal_broadcastInDim _ _ _ (norm_real x1))
/-- and constant along each row. -/
theorem nb_col_val_main_v56 (e : Fin 3300000) (q q' : Fin 30) :
    val_main_v56 (F := Ideal) x1 (ix2 e q) = val_main_v56 (F := Ideal) x1 (ix2 e q') := by
  rw [val_main_v56_apply, val_main_v56_apply]

/-- The edge weights repeated across the 30 features are real, -/
theorem nb_real_val_main_v74 : AllReal (val_main_v74 (F := Ideal) x1) := by
  unfold val_main_v74 val_main_v73
  exact allReal_broadcastInDim _ _ _ (allReal_broadcastInDim _ _ _ (norm_real x1))
/-- and constant along each row. -/
theorem nb_col_val_main_v74 (e : Fin 3300000) (q q' : Fin 30) :
    val_main_v74 (F := Ideal) x1 (ix2 e q) = val_main_v74 (F := Ideal) x1 (ix2 e q') := by
  rw [val_main_v74_apply, val_main_v74_apply]

/-- One layer of the reference keeps an array real: stated over the layer's pieces, so that it reads each of the
    three layers after their names are unfolded. -/
theorem layer_real (h : FVec Ideal S100000x30 .f32) (W : FVec Ideal S30x30 .f32) (bv : FVec Ideal S30 .f32)
    (srcI dstI : IVec S3300000x1 32) (nb : FVec Ideal S3300000x30 .f32)
    (hh : AllReal h) (hW : AllReal W) (hb : AllReal bv) (hnb : AllReal nb) :
    AllReal (maximumf (addf (Host.scatterAdd scatter_S100000x30_S3300000x1_S3300000x30_1_0_0_1
          (broadcastInDim S100000x30 ![] bcast_S_S100000x30 (constant (F := Ideal) S_ .f32 0x00000000#32)) dstI
          (mulf (Host.gather gather_S100000x30_S3300000x1_S3300000x30_1_0_n_n_0_1_130
            (Host.dotGeneral dot_S100000x30_S30x30_S100000x30_1_0_0_1_n_n none h W) srcI) nb))
        (broadcastInDim S100000x30 ![0, 1] bcast_S1x30_S100000x30_0_1 (broadcastInDim S1x30 ![1] bcast_S30_S1x30_1 bv)))
      (broadcastInDim S100000x30 ![] bcast_S_S100000x30 (constant (F := Ideal) S_ .f32 0x00000000#32))) := by
  have hz : AllReal (broadcastInDim S100000x30 ![] bcast_S_S100000x30 (constant (F := Ideal) S_ .f32 0x00000000#32)) :=
    allReal_splat _ _ _ ⟨0, Ideal.ofBits_zero_f32⟩
  refine allReal_maximumf _ _ (allReal_addf _ _ (allReal_scatterAdd _ _ _ _ hz
    (allReal_mulf _ _ (allReal_gather _ _ _ (allReal_dotGeneral _ _ _ hh hW)) hnb))
    (allReal_broadcastInDim _ _ _ (allReal_broadcastInDim _ _ _ hb))) hz

variable (x0 : FVec Ideal S100000x30 .f32) (x3 : FVec Ideal S30x30 .f32) (x4 : FVec Ideal S30 .f32)
  (x5 : FVec Ideal S30x30 .f32) (x6 : FVec Ideal S30 .f32) (x7 : FVec Ideal S30x30 .f32) (x8 : FVec Ideal S30 .f32)

/-- The first layer of the reference, its names unfolded to the layer's pieces. -/
theorem layer1_unfold : val_main_v46 (F := Ideal) x0 x1 x3 x4
    = maximumf (addf (Host.scatterAdd scatter_S100000x30_S3300000x1_S3300000x30_1_0_0_1
          (broadcastInDim S100000x30 ![] bcast_S_S100000x30 (constant (F := Ideal) S_ .f32 0x00000000#32)) (val_main_v41 (F := Ideal) x1)
          (mulf (Host.gather gather_S100000x30_S3300000x1_S3300000x30_1_0_n_n_0_1_130
            (Host.dotGeneral dot_S100000x30_S30x30_S100000x30_1_0_0_1_n_n none x0 x3) (val_main_v35 (F := Ideal) x1)) (val_main_v38 (F := Ideal) x1)))
        (broadcastInDim S100000x30 ![0, 1] bcast_S1x30_S100000x30_0_1 (broadcastInDim S1x30 ![1] bcast_S30_S1x30_1 x4)))
      (broadcastInDim S100000x30 ![] bcast_S_S100000x30 (constant (F := Ideal) S_ .f32 0x00000000#32)) := rfl

/-- The second layer. -/
theorem layer2_unfold : val_main_v64 (F := Ideal) x0 x1 x3 x4 x5 x6
    = maximumf (addf (Host.scatterAdd scatter_S100000x30_S3300000x1_S3300000x30_1_0_0_1
          (broadcastInDim S100000x30 ![] bcast_S_S100000x30 (constant (F := Ideal) S_ .f32 0x00000000#32)) (val_main_v59 (F := Ideal) x1)
          (mulf (Host.gather gather_S100000x30_S3300000x1_S3300000x30_1_0_n_n_0_1_130
            (Host.dotGeneral (φ₁ := .f32) dot_S100000x30_S30x30_S100000x30_1_0_0_1_n_n none (val_main_v46 (F := Ideal) x0 x1 x3 x4) x5) (val_main_v53 (F := Ideal) x1)) (val_main_v56 (F := Ideal) x1)))
        (broadcastInDim S100000x30 ![0, 1] bcast_S1x30_S100000x30_0_1 (broadcastInDim S1x30 ![1] bcast_S30_S1x30_1 x6)))
      (broadcastInDim S100000x30 ![] bcast_S_S100000x30 (constant (F := Ideal) S_ .f32 0x00000000#32)) := rfl

/-- The third layer. -/
theorem layer3_unfold : val_main_v82 (F := Ideal) x0 x1 x3 x4 x5 x6 x7 x8
    = maximumf (addf (Host.scatterAdd scatter_S100000x30_S3300000x1_S3300000x30_1_0_0_1
          (broadcastInDim S100000x30 ![] bcast_S_S100000x30 (constant (F := Ideal) S_ .f32 0x00000000#32)) (val_main_v77 (F := Ideal) x1)
          (mulf (Host.gather gather_S100000x30_S3300000x1_S3300000x30_1_0_n_n_0_1_130
            (Host.dotGeneral (φ₁ := .f32) dot_S100000x30_S30x30_S100000x30_1_0_0_1_n_n none (val_main_v64 (F := Ideal) x0 x1 x3 x4 x5 x6) x7) (val_main_v71 (F := Ideal) x1)) (val_main_v74 (F := Ideal) x1)))
        (broadcastInDim S100000x30 ![0, 1] bcast_S1x30_S100000x30_0_1 (broadcastInDim S1x30 ![1] bcast_S30_S1x30_1 x8)))
      (broadcastInDim S100000x30 ![] bcast_S_S100000x30 (constant (F := Ideal) S_ .f32 0x00000000#32)) := rfl

/-- The first layer's output is real when the node features, the first weights and the first bias are. -/
theorem out1_real (h0 : AllReal x0) (h3 : AllReal x3) (h4 : AllReal x4) : AllReal (val_main_v46 (F := Ideal) x0 x1 x3 x4) := by
  rw [layer1_unfold]
  exact layer_real _ _ _ _ _ _ h0 h3 h4 (nb_real_val_main_v38 x1)

/-- The second layer's output is real when, besides, the second weights and bias are. -/
theorem out2_real (h0 : AllReal x0) (h3 : AllReal x3) (h4 : AllReal x4) (h5 : AllReal x5) (h6 : AllReal x6) :
    AllReal (val_main_v64 (F := Ideal) x0 x1 x3 x4 x5 x6) := by
  rw [layer2_unfold]
  exact layer_real _ _ _ _ _ _ (out1_real x1 x0 x3 x4 h0 h3 h4) h5 h6 (nb_real_val_main_v56 x1)

end Cert.ReferenceIdeal.RefFacts

end
-- ==== Proof.Chain.lean ====
/-
  The kernel program's result is the reference's.

  The buffer contents at the seven boundaries of the kernel program are followed from the launch memory to the
  return. The opening stretch leaves the index vectors, the edge weights and the first aggregation as the reference's
  own stage functions of the edge list; they and the arguments are then carried untouched through the later stretches
  and launches. Each launch leaves the node update of the aggregation it was entered with, which is the reference's
  layer (multiply, gather, weight, aggregate, bias, maximum with 0) because every number involved is real; so after
  the third launch the node rows are the reference's third layer, and the closing stretch pools them and applies the
  final linear map exactly as the reference's last stages do.
-/
import proofs.«176950_j53764400611947_2_alg».proof.Proof.Stretches
import proofs.«176950_j53764400611947_2_alg».proof.Proof.Region0
import proofs.«176950_j53764400611947_2_alg».proof.Proof.Region1
import proofs.«176950_j53764400611947_2_alg».proof.Proof.Region2
import proofs.«176950_j53764400611947_2_alg».proof.Proof.LayerBridge
import proofs.«176950_j53764400611947_2_alg».proof.Proof.RefFacts

set_option maxRecDepth 16384

noncomputable section

namespace Cert.KernelIdeal.Valued

open Cert.KernelIdeal Cert.KernelIdeal.Gen Idealize.ShloMosaic Idealize.ShloMosaic.TcCoe Idealize.ShloMosaic.StableHlo
open Cert.ReferenceIdeal.Read Cert.ReferenceIdeal.RefFacts Cert.Lib Idealize.SL.Sem

-- the host operations stay folded: an entry of an accumulating scatter is a sum over millions of update indices
attribute [local irreducible] Host.scatterAdd Host.gather nodeUpdate

variable (m : (ℓ : Loc nD τ sig) → Buf (Elt Ideal) ℓ) (ρ : Dev nD → PrngReg) (c : Dev nD)

/-! ## What is carried from boundary to boundary -/

theorem W1_main_v3 : W1 m ρ c (Proc.devRef .tc main_v3) = val_main_v3 (F := Ideal) (W0 m ρ c (Proc.devRef .tc main_arg1)) := open_src (W0 m ρ c)
theorem W2_main_v3 : W2 m ρ c (Proc.devRef .tc main_v3) = val_main_v3 (F := Ideal) (W0 m ρ c (Proc.devRef .tc main_arg1)) := (W2_of_ne m ρ c main_v3 (by decide)).trans (W1_main_v3 m ρ c)
theorem W3_main_v3 : W3 m ρ c (Proc.devRef .tc main_v3) = val_main_v3 (F := Ideal) (W0 m ρ c (Proc.devRef .tc main_arg1)) := (keep1_main_v3 (W2 m ρ c)).trans (W2_main_v3 m ρ c)
theorem W4_main_v3 : W4 m ρ c (Proc.devRef .tc main_v3) = val_main_v3 (F := Ideal) (W0 m ρ c (Proc.devRef .tc main_arg1)) := (W4_of_ne m ρ c main_v3 (by decide)).trans (W3_main_v3 m ρ c)
theorem W1_main_v6 : W1 m ρ c (Proc.devRef .tc main_v6) = val_main_v6 (F := Ideal) (W0 m ρ c (Proc.devRef .tc main_arg1)) := open_dst (W0 m ρ c)
theorem W2_main_v6 : W2 m ρ c (Proc.devRef .tc main_v6) = val_main_v6 (F := Ideal) (W0 m ρ c (Proc.devRef .tc main_arg1)) := (W2_of_ne m ρ c main_v6 (by decide)).trans (W1_main_v6 m ρ c)
theorem W3_main_v6 : W3 m ρ c (Proc.devRef .tc main_v6) = val_main_v6 (F := Ideal) (W0 m ρ c (Proc.devRef .tc main_arg1)) := (keep1_main_v6 (W2 m ρ c)).trans (W2_main_v6 m ρ c)
theorem W4_main_v6 : W4 m ρ c (Proc.devRef .tc main_v6) = val_main_v6 (F := Ideal) (W0 m ρ c (Proc.devRef .tc main_arg1)) := (W4_of_ne m ρ c main_v6 (by decide)).trans (W3_main_v6 m ρ c)
theorem W1_main_v28 : W1 m ρ c (Proc.devRef .tc main_v28) = val_main_v28 (F := Ideal) (W0 m ρ c (Proc.devRef .tc main_arg1)) := open_norm (W0 m ρ c)
theorem W2_main_v28 : W2 m ρ c (Proc.devRef .tc main_v28) = val_main_v28 (F := Ideal) (W0 m ρ c (Proc.devRef .tc main_arg1)) := (W2_of_ne m ρ c main_v28 (by decide)).trans (W1_main_v28 m ρ c)
theorem W3_main_v28 : W3 m ρ c (Proc.devRef .tc main_v28) = val_main_v28 (F := Ideal) (W0 m ρ c (Proc.devRef .tc main_arg1)) := (keep1_main_v28 (W2 m ρ c)).trans (W2_main_v28 m ρ c)
theorem W4_main_v28 : W4 m ρ c (Proc.devRef .tc main_v28) = val_main_v28 (F := Ideal) (W0 m ρ c (Proc.devRef .tc main_arg1)) := (W4_of_ne m ρ c main_v28 (by decide)).trans (W3_main_v28 m ρ c)
theorem W1_main_arg3 : W1 m ρ c (Proc.devRef .tc main_arg3) = (W0 m ρ c (Proc.devRef .tc main_arg3)) := keep0_main_arg3 (W0 m ρ c)
theorem W1_main_arg5 : W1 m ρ c (Proc.devRef .tc main_arg5) = (W0 m ρ c (Proc.devRef .tc main_arg5)) := keep0_main_arg5 (W0 m ρ c)
theorem W2_main_arg5 : W2 m ρ c (Proc.devRef .tc main_arg5) = (W0 m ρ c (Proc.devRef .tc main_arg5)) := (W2_of_ne m ρ c main_arg5 (by decide)).trans (W1_main_arg5 m ρ c)
theorem W3_main_arg5 : W3 m ρ c (Proc.devRef .tc main_arg5) = (W0 m ρ c (Proc.devRef .tc main_arg5)) := (keep1_main_arg5 (W2 m ρ c)).trans (W2_main_arg5 m ρ c)
theorem W1_main_arg6 : W1 m ρ c (Proc.devRef .tc main_arg6) = (W0 m ρ c (Proc.devRef .tc main_arg6)) := keep0_main_arg6 (W0 m ρ c)
theorem W2_main_arg6 : W2 m ρ c (Proc.devRef .tc main_arg6) = (W0 m ρ c (Proc.devRef .tc main_arg6)) := (W2_of_ne m ρ c main_arg6 (by decide)).trans (W1_main_arg6 m ρ c)
theorem W1_main_arg7 : W1 m ρ c (Proc.devRef .tc main_arg7) = (W0 m ρ c (Proc.devRef .tc main_arg7)) := keep0_main_arg7 (W0 m ρ c)
theorem W2_main_arg7 : W2 m ρ c (Proc.devRef .tc main_arg7) = (W0 m ρ c (Proc.devRef .tc main_arg7)) := (W2_of_ne m ρ c main_arg7 (by decide)).trans (W1_main_arg7 m ρ c)
theorem W3_main_arg7 : W3 m ρ c (Proc.devRef .tc main_arg7) = (W0 m ρ c (Proc.devRef .tc main_arg7)) := (keep1_main_arg7 (W2 m ρ c)).trans (W2_main_arg7 m ρ c)
theorem W4_main_arg7 : W4 m ρ c (Proc.devRef .tc main_arg7) = (W0 m ρ c (Proc.devRef .tc main_arg7)) := (W4_of_ne m ρ c main_arg7 (by decide)).trans (W3_main_arg7 m ρ c)
theorem W5_main_arg7 : W5 m ρ c (Proc.devRef .tc main_arg7) = (W0 m ρ c (Proc.devRef .tc main_arg7)) := (keep2_main_arg7 (W4 m ρ c)).trans (W4_main_arg7 m ρ c)
theorem W1_main_arg8 : W1 m ρ c (Proc.devRef .tc main_arg8) = (W0 m ρ c (Proc.devRef .tc main_arg8)) := keep0_main_arg8 (W0 m ρ c)
theorem W2_main_arg8 : W2 m ρ c (Proc.devRef .tc main_arg8) = (W0 m ρ c (Proc.devRef .tc main_arg8)) := (W2_of_ne m ρ c main_arg8 (by decide)).trans (W1_main_arg8 m ρ c)
theorem W3_main_arg8 : W3 m ρ c (Proc.devRef .tc main_arg8) = (W0 m ρ c (Proc.devRef .tc main_arg8)) := (keep1_main_arg8 (W2 m ρ c)).trans (W2_main_arg8 m ρ c)
theorem W4_main_arg8 : W4 m ρ c (Proc.devRef .tc main_arg8) = (W0 m ρ c (Proc.devRef .tc main_arg8)) := (W4_of_ne m ρ c main_arg8 (by decide)).trans (W3_main_arg8 m ρ c)
theorem W1_main_arg2 : W1 m ρ c (Proc.devRef .tc main_arg2) = (W0 m ρ c (Proc.devRef .tc main_arg2)) := keep0_main_arg2 (W0 m ρ c)
theorem W2_main_arg2 : W2 m ρ c (Proc.devRef .tc main_arg2) = (W0 m ρ c (Proc.devRef .tc main_arg2)) := (W2_of_ne m ρ c main_arg2 (by decide)).trans (W1_main_arg2 m ρ c)
theorem W3_main_arg2 : W3 m ρ c (Proc.devRef .tc main_arg2) = (W0 m ρ c (Proc.devRef .tc main_arg2)) := (keep1_main_arg2 (W2 m ρ c)).trans (W2_main_arg2 m ρ c)
theorem W4_main_arg2 : W4 m ρ c (Proc.devRef .tc main_arg2) = (W0 m ρ c (Proc.devRef .tc main_arg2)) := (W4_of_ne m ρ c main_arg2 (by decide)).trans (W3_main_arg2 m ρ c)
theorem W5_main_arg2 : W5 m ρ c (Proc.devRef .tc main_arg2) = (W0 m ρ c (Proc.devRef .tc main_arg2)) := (keep2_main_arg2 (W4 m ρ c)).trans (W4_main_arg2 m ρ c)
theorem W6_main_arg2 : W6 m ρ c (Proc.devRef .tc main_arg2) = (W0 m ρ c (Proc.devRef .tc main_arg2)) := (W6_of_ne m ρ c main_arg2 (by decide)).trans (W5_main_arg2 m ρ c)
theorem W1_main_arg9 : W1 m ρ c (Proc.devRef .tc main_arg9) = (W0 m ρ c (Proc.devRef .tc main_arg9)) := keep0_main_arg9 (W0 m ρ c)
theorem W2_main_arg9 : W2 m ρ c (Proc.devRef .tc main_arg9) = (W0 m ρ c (Proc.devRef .tc main_arg9)) := (W2_of_ne m ρ c main_arg9 (by decide)).trans (W1_main_arg9 m ρ c)
theorem W3_main_arg9 : W3 m ρ c (Proc.devRef .tc main_arg9) = (W0 m ρ c (Proc.devRef .tc main_arg9)) := (keep1_main_arg9 (W2 m ρ c)).trans (W2_main_arg9 m ρ c)
theorem W4_main_arg9 : W4 m ρ c (Proc.devRef .tc main_arg9) = (W0 m ρ c (Proc.devRef .tc main_arg9)) := (W4_of_ne m ρ c main_arg9 (by decide)).trans (W3_main_arg9 m ρ c)
theorem W5_main_arg9 : W5 m ρ c (Proc.devRef .tc main_arg9) = (W0 m ρ c (Proc.devRef .tc main_arg9)) := (keep2_main_arg9 (W4 m ρ c)).trans (W4_main_arg9 m ρ c)
theorem W6_main_arg9 : W6 m ρ c (Proc.devRef .tc main_arg9) = (W0 m ρ c (Proc.devRef .tc main_arg9)) := (W6_of_ne m ρ c main_arg9 (by decide)).trans (W5_main_arg9 m ρ c)
theorem W1_main_arg10 : W1 m ρ c (Proc.devRef .tc main_arg10) = (W0 m ρ c (Proc.devRef .tc main_arg10)) := keep0_main_arg10 (W0 m ρ c)
theorem W2_main_arg10 : W2 m ρ c (Proc.devRef .tc main_arg10) = (W0 m ρ c (Proc.devRef .tc main_arg10)) := (W2_of_ne m ρ c main_arg10 (by decide)).trans (W1_main_arg10 m ρ c)
theorem W3_main_arg10 : W3 m ρ c (Proc.devRef .tc main_arg10) = (W0 m ρ c (Proc.devRef .tc main_arg10)) := (keep1_main_arg10 (W2 m ρ c)).trans (W2_main_arg10 m ρ c)
theorem W4_main_arg10 : W4 m ρ c (Proc.devRef .tc main_arg10) = (W0 m ρ c (Proc.devRef .tc main_arg10)) := (W4_of_ne m ρ c main_arg10 (by decide)).trans (W3_main_arg10 m ρ c)
theorem W5_main_arg10 : W5 m ρ c (Proc.devRef .tc main_arg10) = (W0 m ρ c (Proc.devRef .tc main_arg10)) := (keep2_main_arg10 (W4 m ρ c)).trans (W4_main_arg10 m ρ c)
theorem W6_main_arg10 : W6 m ρ c (Proc.devRef .tc main_arg10) = (W0 m ρ c (Proc.devRef .tc main_arg10)) := (W6_of_ne m ρ c main_arg10 (by decide)).trans (W5_main_arg10 m ρ c)

/-! ## The three layers -/

/-- After the first launch the node rows are the reference's first layer. -/
theorem L1 (h0 : AllReal (W0 m ρ c (Proc.devRef .tc main_arg0))) (h3 : AllReal (W0 m ρ c (Proc.devRef .tc main_arg3))) :
    W2 m ρ c (Proc.devRef .tc main_v43) = (val_main_v46 (F := Ideal) (W0 m ρ c (Proc.devRef .tc main_arg0)) (W0 m ρ c (Proc.devRef .tc main_arg1)) (W0 m ρ c (Proc.devRef .tc main_arg3)) (W0 m ρ c (Proc.devRef .tc main_arg4))) :=
  calc W2 m ρ c (Proc.devRef .tc main_v43)
      = (dat0 (F := Ideal) (V1 m ρ) c).arrAt 3 cfg0.N := W2_arr m ρ c 3
    _ = nodeUpdate (V1 m ρ c main_v41) (V1 m ρ c main_arg3) (V1 m ρ c main_v42) := regionArray0 (V1 m ρ) c
    _ = nodeUpdate (Host.scatterAdd (F := Ideal) scatter_S100000x30_S3300000x1_S3300000x30_1_0_0_1
        (broadcastInDim S100000x30 ![] bcast_S_S100000x30 (constant S_ .f32 0x00000000#32)) (val_main_v41 (F := Ideal) (W0 m ρ c (Proc.devRef .tc main_arg1)))
        (mulf (Host.gather gather_S100000x30_S3300000x1_S3300000x30_1_0_n_n_0_1_130 (W0 m ρ c (Proc.devRef .tc main_arg0))
          (val_main_v35 (F := Ideal) (W0 m ρ c (Proc.devRef .tc main_arg1)))) (val_main_v38 (F := Ideal) (W0 m ρ c (Proc.devRef .tc main_arg1)))))
          (W0 m ρ c (Proc.devRef .tc main_arg3)) (shapeCast (α := Elt Ideal .f32) S1x30 (W0 m ρ c (Proc.devRef .tc main_arg4)) shapeCasts_S30_S1x30) :=
        congr (congr (congrArg nodeUpdate (open_agg (W0 m ρ c))) (W1_main_arg3 m ρ c)) (open_bias (W0 m ρ c))
    _ = (val_main_v46 (F := Ideal) (W0 m ρ c (Proc.devRef .tc main_arg0)) (W0 m ρ c (Proc.devRef .tc main_arg1)) (W0 m ρ c (Proc.devRef .tc main_arg3)) (W0 m ρ c (Proc.devRef .tc main_arg4))) := by
        rw [layer1_unfold]
        exact layer_bridge _ _ _ _ _ _ h0 h3 (nb_real_val_main_v38 _) (nb_col_val_main_v38 _)

/-- After the second launch they are the reference's second layer. -/
theorem L2 (h0 : AllReal (W0 m ρ c (Proc.devRef .tc main_arg0))) (h3 : AllReal (W0 m ρ c (Proc.devRef .tc main_arg3))) (h4 : AllReal (W0 m ρ c (Proc.devRef .tc main_arg4))) (h5 : AllReal (W0 m ρ c (Proc.devRef .tc main_arg5))) :
    W4 m ρ c (Proc.devRef .tc main_v58) = (val_main_v64 (F := Ideal) (W0 m ρ c (Proc.devRef .tc main_arg0)) (W0 m ρ c (Proc.devRef .tc main_arg1)) (W0 m ρ c (Proc.devRef .tc main_arg3)) (W0 m ρ c (Proc.devRef .tc main_arg4)) (W0 m ρ c (Proc.devRef .tc main_arg5)) (W0 m ρ c (Proc.devRef .tc main_arg6))) :=
  calc W4 m ρ c (Proc.devRef .tc main_v58)
      = (dat1 (F := Ideal) (V3 m ρ) c).arrAt 3 cfg1.N := W4_arr m ρ c 3
    _ = nodeUpdate (V3 m ρ c main_v56) (V3 m ρ c main_arg5) (V3 m ρ c main_v57) := regionArray1 (V3 m ρ) c
    _ = nodeUpdate (Host.scatterAdd (F := Ideal) scatter_S100000x30_S3300000x1_S3300000x30_1_0_0_1
        (broadcastInDim S100000x30 ![] bcast_S_S100000x30 (constant S_ .f32 0x00000000#32)) (val_main_v59 (F := Ideal) (W0 m ρ c (Proc.devRef .tc main_arg1)))
        (mulf (Host.gather gather_S100000x30_S3300000x1_S3300000x30_1_0_n_n_0_1_130 (W2 m ρ c (Proc.devRef .tc main_v43))
          (val_main_v53 (F := Ideal) (W0 m ρ c (Proc.devRef .tc main_arg1)))) (val_main_v56 (F := Ideal) (W0 m ρ c (Proc.devRef .tc main_arg1)))))
          (W0 m ρ c (Proc.devRef .tc main_arg5)) (shapeCast (α := Elt Ideal .f32) S1x30 (W0 m ρ c (Proc.devRef .tc main_arg6)) shapeCasts_S30_S1x30) :=
        congr (congr (congrArg nodeUpdate (mid1_agg (W2 m ρ c) _ (W2_main_v3 m ρ c) (W2_main_v6 m ρ c) (W2_main_v28 m ρ c)))
          (W3_main_arg5 m ρ c)) ((mid1_bias (W2 m ρ c)).trans (congrArg (fun v => shapeCast (α := Elt Ideal .f32) S1x30 v shapeCasts_S30_S1x30) (W2_main_arg6 m ρ c)))
    _ = (val_main_v64 (F := Ideal) (W0 m ρ c (Proc.devRef .tc main_arg0)) (W0 m ρ c (Proc.devRef .tc main_arg1)) (W0 m ρ c (Proc.devRef .tc main_arg3)) (W0 m ρ c (Proc.devRef .tc main_arg4)) (W0 m ρ c (Proc.devRef .tc main_arg5)) (W0 m ρ c (Proc.devRef .tc main_arg6))) := by
        rw [L1 m ρ c h0 h3, layer2_unfold]
        exact layer_bridge _ _ _ _ _ _ (out1_real _ _ _ _ h0 h3 h4) h5 (nb_real_val_main_v56 _) (nb_col_val_main_v56 _)

/-- After the third launch they are the reference's third layer. -/
theorem L3 (h0 : AllReal (W0 m ρ c (Proc.devRef .tc main_arg0))) (h3 : AllReal (W0 m ρ c (Proc.devRef .tc main_arg3))) (h4 : AllReal (W0 m ρ c (Proc.devRef .tc main_arg4))) (h5 : AllReal (W0 m ρ c (Proc.devRef .tc main_arg5)))
    (h6 : AllReal (W0 m ρ c (Proc.devRef .tc main_arg6))) (h7 : AllReal (W0 m ρ c (Proc.devRef .tc main_arg7))) :
    W6 m ρ c (Proc.devRef .tc main_v73) = (val_main_v82 (F := Ideal) (W0 m ρ c (Proc.devRef .tc main_arg0)) (W0 m ρ c (Proc.devRef .tc main_arg1)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8))) :=
  calc W6 m ρ c (Proc.devRef .tc main_v73)
      = (dat2 (F := Ideal) (V5 m ρ) c).arrAt 3 cfg2.N := W6_arr m ρ c 3
    _ = nodeUpdate (V5 m ρ c main_v71) (V5 m ρ c main_arg7) (V5 m ρ c main_v72) := regionArray2 (V5 m ρ) c
    _ = nodeUpdate (Host.scatterAdd (F := Ideal) scatter_S100000x30_S3300000x1_S3300000x30_1_0_0_1
        (broadcastInDim S100000x30 ![] bcast_S_S100000x30 (constant S_ .f32 0x00000000#32)) (val_main_v77 (F := Ideal) (W0 m ρ c (Proc.devRef .tc main_arg1)))
        (mulf (Host.gather gather_S100000x30_S3300000x1_S3300000x30_1_0_n_n_0_1_130 (W4 m ρ c (Proc.devRef .tc main_v58))
          (val_main_v71 (F := Ideal) (W0 m ρ c (Proc.devRef .tc main_arg1)))) (val_main_v74 (F := Ideal) (W0 m ρ c (Proc.devRef .tc main_arg1)))))
          (W0 m ρ c (Proc.devRef .tc main_arg7)) (shapeCast (α := Elt Ideal .f32) S1x30 (W0 m ρ c (Proc.devRef .tc main_arg8)) shapeCasts_S30_S1x30) :=
        congr (congr (congrArg nodeUpdate (mid2_agg (W4 m ρ c) _ (W4_main_v3 m ρ c) (W4_main_v6 m ρ c) (W4_main_v28 m ρ c)))
          (W5_main_arg7 m ρ c)) ((mid2_bias (W4 m ρ c)).trans (congrArg (fun v => shapeCast (α := Elt Ideal .f32) S1x30 v shapeCasts_S30_S1x30) (W4_main_arg8 m ρ c)))
    _ = (val_main_v82 (F := Ideal) (W0 m ρ c (Proc.devRef .tc main_arg0)) (W0 m ρ c (Proc.devRef .tc main_arg1)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8))) := by
        rw [L2 m ρ c h0 h3 h4 h5, layer3_unfold]
        exact layer_bridge _ _ _ _ _ _ (out2_real _ _ _ _ _ _ h0 h3 h4 h5 h6) h7 (nb_real_val_main_v74 _) (nb_col_val_main_v74 _)

/-! ## The result -/

/-- At the return the result buffer holds the reference's last stage of the launch arguments. -/
theorem kernel_value (h0 : AllReal (W0 m ρ c (Proc.devRef .tc main_arg0))) (h3 : AllReal (W0 m ρ c (Proc.devRef .tc main_arg3))) (h4 : AllReal (W0 m ρ c (Proc.devRef .tc main_arg4))) (h5 : AllReal (W0 m ρ c (Proc.devRef .tc main_arg5)))
    (h6 : AllReal (W0 m ρ c (Proc.devRef .tc main_arg6))) (h7 : AllReal (W0 m ρ c (Proc.devRef .tc main_arg7))) :
    W7 m ρ c (Proc.devRef .tc main_v80) = val_main_v89 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) :=
  close_result (W6 m ρ c) _ _ _ _ _ _ _ _ _ _ _ (L3 m ρ c h0 h3 h4 h5 h6 h7) (W6_main_arg2 m ρ c) (W6_main_arg9 m ρ c) (W6_main_arg10 m ρ c)

end Cert.KernelIdeal.Valued

end
-- ==== Proof.LibFiniteEntries.lean ====
/-
  Finite entries: from an and-reduction of |v| < +∞ to real numbers.

  A precondition "every entry of v is finite" is printed as the and-reduction, over all axes, of the entrywise
  comparison |v| < +∞, where |v| is max(v, −v) and +∞ is the f32 word 0x7F800000, and is asserted to be 1. Then the
  comparison is 1 at every entry, and an extended real whose absolute value is below +∞ is a real number. Stated for
  an array of any shape, so that one conjunct of a conjunction of such tests is read with one application.
-/
import Idealize.ShloMosaic.PureOps.Ideal
import Idealize.ShloMosaic.Lib.ReduceAll
import Idealize.ShloMosaic.Lib.ValueIdx

noncomputable section

namespace Cert.Lib

open Idealize.ShloMosaic Idealize.ShloMosaic.ValueIdx

/-- The scalar shape has one index. -/
instance scalarIdx_subsingleton : Subsingleton (⟨0, ![]⟩ : Shape).Idx := ⟨fun _ _ => funext fun d => d.elim0⟩

/-- An extended real whose absolute value max(v, −v) is below +∞ is a real number. -/
theorem exists_real_of_abs_lt_top (v : EReal) (h : max v (-v) < ⊤) : ∃ r : ℝ, v = (r : EReal) := by
  induction v using EReal.rec with
  | bot => simp at h
  | coe r => exact ⟨r, rfl⟩
  | top => simp at h

/-- On one value: the ordered comparison |v| < +∞ (the word 0x7F800000) coming out 1 says that v is a real number. -/
theorem real_of_abs_olt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  unfold Ideal.cmp at h
  refine exists_real_of_abs_lt_top v ?_
  by_contra hn
  simp [hn] at h

/-- One "all entries finite" test: if the and-reduction over all axes of |v| < +∞ (the bound a scalar constant repeated
    over the shape, the reduction started from the constant 1) is 1, every entry of v is a real number. -/
theorem real_of_all_finite {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf v) (broadcastInDim s ![] hb (constant (F := Ideal) ⟨0, ![]⟩ .f32 0x7F800000#32)))
        (constantI ⟨0, ![]⟩ 1 1#1) hr hu ix0 = 1#1) (i : s.Idx) : ∃ r : ℝ, v i = (r : EReal) :=
  real_of_abs_olt_inf (v i) (Host.reduce_andi_all _ _ hr hu ix0 h i)

end Cert.Lib

end
-- ==== Proof.PreReal.lean ====
/-
  From the precondition to real numbers.

  The precondition is the conjunction, over the nine float inputs (node features, three weight matrices, three bias
  vectors, the final column and its scalar bias), of the test "every entry has absolute value below +∞", and it is
  asserted to be 1. A conjunction that is 1 has every conjunct 1, and one such test that is 1 says that every entry
  of its array is a real number. The two integer inputs are not tested and are not needed.
-/
import proofs.«176950_j53764400611947_2_alg».proof.Pre_finite_inputs
import proofs.«176950_j53764400611947_2_alg».proof.Proof.Gen.Pre_finite_inputs
import proofs.«176950_j53764400611947_2_alg».proof.Proof.LibFiniteEntries
import proofs.«176950_j53764400611947_2_alg».proof.Proof.LibRealEntries
import Idealize.ShloMosaic.Lib.Affine

noncomputable section

namespace Cert.Pre_finite_inputs.PreReal

open Cert.Pre_finite_inputs Idealize.ShloMosaic Idealize.ShloMosaic.ValueIdx Cert.Lib

/-- Under the precondition every float input is an array of real numbers. -/
theorem inputs_real (x0 : FVec Ideal S100000x30 .f32) (x1 : IVec S2x3200000 32) (x2 : IVec S100000 32)
    (x3 : FVec Ideal S30x30 .f32) (x4 : FVec Ideal S30 .f32) (x5 : FVec Ideal S30x30 .f32) (x6 : FVec Ideal S30 .f32)
    (x7 : FVec Ideal S30x30 .f32) (x8 : FVec Ideal S30 .f32) (x9 : FVec Ideal S30x1 .f32) (x10 : FVec Ideal S1 .f32)
    (h : fn (F := Ideal) x0 x1 x2 x3 x4 x5 x6 x7 x8 x9 x10 = fun _ => 1#1) :
    AllReal x0 ∧ AllReal x3 ∧ AllReal x4 ∧ AllReal x5 ∧ AllReal x6 ∧ AllReal x7 ∧ AllReal x8 ∧ AllReal x9 ∧ AllReal x10 := by
  have h0 := congrFun h ix0
  dsimp only [fn, fn_part1, fn_part2, andi] at h0
  simp only [IntOp.andi_eq_one] at h0
  obtain ⟨⟨⟨⟨⟨⟨⟨⟨t0, t3⟩, t4⟩, t5⟩, t6⟩, t7⟩, t8⟩, t9⟩, t10⟩ := h0
  exact ⟨real_of_all_finite _ _ _ _ t0, real_of_all_finite _ _ _ _ t3, real_of_all_finite _ _ _ _ t4,
    real_of_all_finite _ _ _ _ t5, real_of_all_finite _ _ _ _ t6, real_of_all_finite _ _ _ _ t7,
    real_of_all_finite _ _ _ _ t8, real_of_all_finite _ _ _ _ t9, real_of_all_finite _ _ _ _ t10⟩

end Cert.Pre_finite_inputs.PreReal

end
-- ==== Proof.lean ====
/-
  A three-layer graph convolution with sum pooling and a linear head, computed two ways.

  Both programs build, from the edge list, the edges-plus-self-loops source and destination vectors and the symmetric
  normalization weights dinv[src] · dinv[dst], dinv = rsqrt (max (degree, 1)). In each layer the kernel program gathers
  the source rows, weights them, adds them onto their destination rows and only then runs a fused node update
  relu (agg · W + b) in ten row blocks; the reference multiplies by W first, then gathers, weights, aggregates, adds
  the bias and takes the maximum with 0. On exact values and real inputs the two orders give the same rows, because
  a matrix product commutes with a weighted sum of rows; both programs then pool the rows by graph and apply the same
  final linear map. The precondition (every float input finite) is what makes every number real: the degree and the
  normalization weights are real whatever the edge list holds.

  The frames are the generated ones; the kernel's run with its result named, the reading of its launches and host
  stretches, the exchange law and the bookkeeping of real entries are in the modules under Proof/.
-/
import proofs.«176950_j53764400611947_2_alg».proof.Defs
import proofs.«176950_j53764400611947_2_alg».proof.Proof.Gen.Kernel
import proofs.«176950_j53764400611947_2_alg».proof.Proof.Gen.Kernel.Skeleton
import proofs.«176950_j53764400611947_2_alg».proof.Proof.Gen.Kernel.Launch
import proofs.«176950_j53764400611947_2_alg».proof.Proof.Gen.Kernel.Points
import proofs.«176950_j53764400611947_2_alg».proof.Proof.Gen.Kernel.Frame
import proofs.«176950_j53764400611947_2_alg».proof.Proof.Gen.KernelIdeal
import proofs.«176950_j53764400611947_2_alg».proof.Proof.Gen.KernelIdeal.Skeleton
import proofs.«176950_j53764400611947_2_alg».proof.Proof.Gen.KernelIdeal.Launch
import proofs.«176950_j53764400611947_2_alg».proof.Proof.Gen.KernelIdeal.Points
import proofs.«176950_j53764400611947_2_alg».proof.Proof.Gen.KernelIdeal.Frame
import proofs.«176950_j53764400611947_2_alg».proof.Proof.Gen.ReferenceIdeal
import proofs.«176950_j53764400611947_2_alg».proof.Proof.Gen.Pre_finite_inputs
import proofs.«176950_j53764400611947_2_alg».proof.Proof.Gen.ReferenceIdeal.Run
import proofs.«176950_j53764400611947_2_alg».proof.Proof.Gen.ReferenceIdeal.Read
import proofs.«176950_j53764400611947_2_alg».proof.Proof.KRun
import proofs.«176950_j53764400611947_2_alg».proof.Proof.Chain
import proofs.«176950_j53764400611947_2_alg».proof.Proof.PreReal
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program on exact values. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel program was read on exact values. -/
theorem preserves : Cert.preserves_Kernel_KernelIdeal := trivial

/-- From memories that agree on the arguments both programs end with the same pooled, linearly mapped rows. -/
theorem algebraic : Cert.algebraic_KernelIdeal_ReferenceIdeal := by
  intro m ρ m' ρ' hpre hagree
  refine ⟨fun c => Cert.KernelIdeal.Gen.W7 m ρ c (Proc.devRef .tc Cert.KernelIdeal.main_v80),
    Cert.KernelIdeal.Valued.run_valued m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  obtain ⟨h0, h3, h4, h5, h6, h7, h8, h9, h10⟩ :=
    Cert.Pre_finite_inputs.PreReal.inputs_real _ _ _ _ _ _ _ _ _ _ _ (hpre c)
  rw [Cert.ReferenceIdeal.Read.val_main_v89_eq, a0, a1, a2, a3, a4, a5, a6, a7, a8, a9, a10]
  exact (Cert.KernelIdeal.Valued.kernel_value m ρ c h0 h3 h4 h5 h6 h7).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
